-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x4 : Shape := ⟨3, ![8, 1024, 4]⟩
abbrev S8x1024 : Shape := ⟨2, ![8, 1024]⟩
abbrev S8x1024x1024 : Shape := ⟨3, ![8, 1024, 1024]⟩
abbrev S1024x4 : Shape := ⟨2, ![1024, 4]⟩
abbrev S1024x1024 : Shape := ⟨2, ![1024, 1024]⟩
abbrev S_ : Shape := ⟨0, ![]⟩

class Facts : Prop where
  bcast_S_S8x1024x4 : S_.BroadcastsInDim S8x1024x4 (![] : Fin 0 → Fin S8x1024x4.rank)
  reducesTo_S8x1024x4_S_d0_1_2 : S8x1024x4.ReducesTo [0, 1, 2] S_
  h_S_ : 0 < S_.numel
  bcast_S_S8x1024 : S_.BroadcastsInDim S8x1024 (![] : Fin 0 → Fin S8x1024.rank)
  reducesTo_S8x1024_S_d0_1 : S8x1024.ReducesTo [0, 1] S_
  bcast_S_S8x1024x1024 : S_.BroadcastsInDim S8x1024x1024 (![] : Fin 0 → Fin S8x1024x1024.rank)
  reducesTo_S8x1024x1024_S_d0_1_2 : S8x1024x1024.ReducesTo [0, 1, 2] S_
  bcast_S_S1024x4 : S_.BroadcastsInDim S1024x4 (![] : Fin 0 → Fin S1024x4.rank)
  reducesTo_S1024x4_S_d0_1 : S1024x4.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x4 .f32) (main_arg5 : FVec F S1024x1024 .f32) (main_v13 : IVec S_ 1) (main_v16 : IVec S1024x4 1) : IVec S_ 1 :=
  let main_c_5 : IVec S_ 1 := constantI S_ 1 1#1
  let main_v17 : IVec S_ 1 := (fun x v => Host.reduce IntOp.andi x v reducesTo_S1024x4_S_d0_1 h_S_) main_v16 main_c_5
  let main_v18 : IVec S_ 1 := andi main_v13 main_v17
  let main_v19 : FVec F S1024x4 .f32 := Host.absf main_arg4
  let main_cst_6 : FVec F S_ .f32 := constant S_ .f32 0x7F800000#32
  let main_v20 : FVec F S1024x4 .f32 := broadcastInDim S1024x4 ![] bcast_S_S1024x4 main_cst_6
  let main_v21 : IVec S1024x4 1 := cmpf .olt main_v19 main_v20
  let main_c_7 : IVec S_ 1 := constantI S_ 1 1#1
  let main_v22 : IVec S_ 1 := (fun x v => Host.reduce IntOp.andi x v reducesTo_S1024x4_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  main_v28

def fn {F : FTy → Type} [FloatOps F] (main_arg0 : FVec F S8x1024x4 .f32) (main_arg1 : FVec F S8x1024 .f32) (main_arg2 : FVec F S8x1024x1024 .f32) (main_arg3 : FVec F S1024x4 .f32) (main_arg4 : FVec F S1024x4 .f32) (main_arg5 : FVec F S1024x1024 .f32) : IVec S_ 1 :=
  let main_v0 : FVec F S8x1024x4 .f32 := Host.absf main_arg0
  let main_cst : FVec F S_ .f32 := constant S_ .f32 0x7F800000#32
  let main_v1 : FVec F S8x1024x4 .f32 := broadcastInDim S8x1024x4 ![] bcast_S_S8x1024x4 main_cst
  let main_v2 : IVec S8x1024x4 1 := cmpf .olt main_v0 main_v1
  let main_c : IVec S_ 1 := constantI S_ 1 1#1
  let main_v3 : IVec S_ 1 := (fun x v => Host.reduce IntOp.andi x v reducesTo_S8x1024x4_S_d0_1_2 h_S_) main_v2 main_c
  let main_v4 : FVec F S8x1024 .f32 := Host.absf main_arg1
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  let main_v9 : FVec F S8x1024x1024 .f32 := Host.absf main_arg2
  let main_cst_2 : FVec F S_ .f32 := constant S_ .f32 0x7F800000#32
  let main_v10 : FVec F S8x1024x1024 .f32 := broadcastInDim S8x1024x1024 ![] bcast_S_S8x1024x1024 main_cst_2
  let main_v11 : IVec S8x1024x1024 1 := cmpf .olt main_v9 main_v10
  let main_c_3 : IVec S_ 1 := constantI S_ 1 1#1
  let main_v12 : IVec S_ 1 := (fun x v => Host.reduce IntOp.andi x v reducesTo_S8x1024x1024_S_d0_1_2 h_S_) main_v11 main_c_3
  let main_v13 : IVec S_ 1 := andi main_v8 main_v12
  let main_v14 : FVec F S1024x4 .f32 := Host.absf main_arg3
  let main_cst_4 : FVec F S_ .f32 := constant S_ .f32 0x7F800000#32
  let main_v15 : FVec F S1024x4 .f32 := broadcastInDim S1024x4 ![] bcast_S_S1024x4 main_cst_4
  let main_v16 : IVec S1024x4 1 := cmpf .olt main_v14 main_v15
  fn_part1 (F := F) main_arg4 main_arg5 main_v13 main_v16
-- ==== Kernel.lean ====
abbrev S8x1024x4 : Shape := ⟨3, ![8, 1024, 4]⟩
abbrev S8x1024 : Shape := ⟨2, ![8, 1024]⟩
abbrev S8x1024x1024 : Shape := ⟨3, ![8, 1024, 1024]⟩
abbrev S1024x4 : Shape := ⟨2, ![1024, 4]⟩
abbrev S1024x1024 : Shape := ⟨2, ![1024, 1024]⟩
abbrev S8x1024x1 : Shape := ⟨3, ![8, 1024, 1]⟩
abbrev S1x256x4 : Shape := ⟨3, ![1, 256, 4]⟩
abbrev S1x1024x4 : Shape := ⟨3, ![1, 1024, 4]⟩
abbrev S1x256x1 : Shape := ⟨3, ![1, 256, 1]⟩
abbrev S1x256x1024 : Shape := ⟨3, ![1, 256, 1024]⟩
abbrev S1x1024x256 : Shape := ⟨3, ![1, 1024, 256]⟩
abbrev S256x1024 : Shape := ⟨2, ![256, 1024]⟩
abbrev S256x4 : Shape := ⟨2, ![256, 4]⟩
abbrev S256x1 : Shape := ⟨2, ![256, 1]⟩
abbrev S1024x256 : Shape := ⟨2, ![1024, 256]⟩

abbrev nBuf : Space → Nat
  | .hbm => 10
  | .vmem => 20
  | .smem => 0
  | _ => 0

abbrev bufTy : (tb : Table) → Fin (tcTables nBuf tb) → BufTy
  | .hbm, ⟨0, _⟩ => ⟨S8x1024x4, .f32⟩
  | .hbm, ⟨1, _⟩ => ⟨S8x1024, .f32⟩
  | .hbm, ⟨2, _⟩ => ⟨S8x1024x1024, .f32⟩
  | .hbm, ⟨3, _⟩ => ⟨S1024x4, .f32⟩
  | .hbm, ⟨4, _⟩ => ⟨S1024x4, .f32⟩
  | .hbm, ⟨5, _⟩ => ⟨S1024x1024, .f32⟩
  | .hbm, ⟨6, _⟩ => ⟨S8x1024x1, .f32⟩
  | .hbm, ⟨7, _⟩ => ⟨S1024x1024, .f32⟩
  | .hbm, ⟨8, _⟩ => ⟨S1024x1024, .f32⟩
  | .hbm, ⟨9, _⟩ => ⟨S8x1024x4, .f32⟩
  | .local _ .vmem, ⟨0, _⟩ => ⟨S1x256x4, .f32⟩
  | .local _ .vmem, ⟨1, _⟩ => ⟨S1x256x4, .f32⟩
  | .local _ .vmem, ⟨2, _⟩ => ⟨S1x1024x4, .f32⟩
  | .local _ .vmem, ⟨3, _⟩ => ⟨S1x1024x4, .f32⟩
  | .local _ .vmem, ⟨4, _⟩ => ⟨S1x256x1, .f32⟩
  | .local _ .vmem, ⟨5, _⟩ => ⟨S1x256x1, .f32⟩
  | .local _ .vmem, ⟨6, _⟩ => ⟨S1x256x1024, .f32⟩
  | .local _ .vmem, ⟨7, _⟩ => ⟨S1x256x1024, .f32⟩
  | .local _ .vmem, ⟨8, _⟩ => ⟨S1x1024x256, .f32⟩
  | .local _ .vmem, ⟨9, _⟩ => ⟨S1x1024x256, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x4, .f32⟩
  | .local _ .vmem, ⟨15, _⟩ => ⟨S256x4, .f32⟩
  | .local _ .vmem, ⟨16, _⟩ => ⟨S256x4, .f32⟩
  | .local _ .vmem, ⟨17, _⟩ => ⟨S256x4, .f32⟩
  | .local _ .vmem, ⟨18, _⟩ => ⟨S1x256x4, .f32⟩
  | .local _ .vmem, ⟨19, _⟩ => ⟨S1x256x4, .f32⟩
  | _, _ => ⟨S8x1024x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x256x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x4 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x4 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  bcast_S8x1024_S8x1024x1_0_1 : S8x1024.BroadcastsInDim S8x1024x1 (![0, 1] : Fin 2 → Fin S8x1024x1.rank)
  inb_S1x256x4_S1x256x4_0_0_0 : ∀ a, (![0, 0, 0] : Fin 3 → Nat) a + S1x256x4.size a ≤ S1x256x4.size a
  h_S1x256x4 : 0 < S1x256x4.numel
  shapeCasts_S1x256x4_S256x4 : S1x256x4.ShapeCasts S256x4
  inb_S1x1024x4_S1x1024x4_0_0_0 : ∀ a, (![0, 0, 0] : Fin 3 → Nat) a + S1x1024x4.size a ≤ S1x1024x4.size a
  h_S1x1024x4 : 0 < S1x1024x4.numel
  shapeCasts_S1x1024x4_S1024x4 : S1x1024x4.ShapeCasts S1024x4
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  transposes_S1024x256_p1_0_S256x1024 : S1024x256.Transposes [1, 0] S256x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  bitsLt_bf16_f32 : FTy.bits .bf16 < FTy.bits .f32
  inb_S256x4_S256x4_0_0 : ∀ a, (![0, 0] : Fin 2 → Nat) a + S256x4.size a ≤ S256x4.size a
  h_S256x4 : 0 < S256x4.numel
  broadcasts_S256x1_S256x4 : S256x1.Broadcasts S256x4
  shapeCasts_S256x4_S1x256x4 : S256x4.ShapeCasts S1x256x4
  dot_S256x1024_S1024x4_S256x4_1_0_0_1_n_n_wf : DotDims.WF S256x1024 S1024x4 S256x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4.size a ≤ S8x1024x4.size a
  hwx0_0 : ∀ i : grid0.Coords, EltTy.bits .f32 = 32 ∨ (Rect.block (s := S8x1024x4) S1x256x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x4.size a ≤ S8x1024x4.size a
  hwx0_1 : ∀ i : grid0.Coords, EltTy.bits .f32 = 32 ∨ (Rect.block (s := S8x1024x4) S1x1024x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S8x1024x1.size a
  hwx0_2 : ∀ i : grid0.Coords, EltTy.bits .f32 = 32 ∨ (Rect.block (s := S8x1024x1) S1x256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S8x1024x1024.size a
  hwx0_3 : ∀ i : grid0.Coords, EltTy.bits .f32 = 32 ∨ (Rect.block (s := S8x1024x1024) S1x256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x256.size a ≤ S8x1024x1024.size a
  hwx0_4 : ∀ i : grid0.Coords, EltTy.bits .f32 = 32 ∨ (Rect.block (s := S8x1024x1024) S1x1024x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S1024x1024.size a
  hwx0_5 : ∀ i : grid0.Coords, EltTy.bits .f32 = 32 ∨ (Rect.block (s := S1024x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S1024x1024.size a
  hwx0_6 : ∀ i : grid0.Coords, EltTy.bits .f32 = 32 ∨ (Rect.block (s := S1024x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x4.size a ≤ S1024x4.size a
  hwx0_7 : ∀ i : grid0.Coords, EltTy.bits .f32 = 32 ∨ (Rect.block (s := S1024x4) S256x4.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x4.size a ≤ S1024x4.size a
  hwx0_8 : ∀ i : grid0.Coords, EltTy.bits .f32 = 32 ∨ (Rect.block (s := S1024x4) S256x4.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256x4.size a ≤ S8x1024x4.size a
  hwx0_9 : ∀ i : grid0.Coords, EltTy.bits .f32 = 32 ∨ (Rect.block (s := S8x1024x4) S1x256x4.size (cc0_transform_9 i) (hinb0_9 i)).WholeWords (EltTy.packing .f32)

variable [Facts₀]

def dot_S256x1024_S1024x4_S256x4_1_0_0_1_n_n : DotDims S256x1024 S1024x4 S256x4 where
  lhsContracting := [1]
  rhsContracting := [0]
  lhsNonContracting := [0]
  rhsNonContracting := [1]
  lhsBatch := []
  rhsBatch := []
  wf := dot_S256x1024_S1024x4_S256x4_1_0_0_1_n_n_wf

abbrev win0_0 : Pipeline.Window sig grid0 :=
  Pipeline.Window.ofSpec (Memref.whole main_arg0) S1x256x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1x1024x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S256x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S256x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg3) S256x4.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg4) S256x4.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x256x4.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8x1024x4 : Shape := ⟨3, ![8, 1024, 4]⟩
abbrev S8x1024 : Shape := ⟨2, ![8, 1024]⟩
abbrev S8x1024x1024 : Shape := ⟨3, ![8, 1024, 1024]⟩
abbrev S1024x4 : Shape := ⟨2, ![1024, 4]⟩
abbrev S1024x1024 : Shape := ⟨2, ![1024, 1024]⟩
abbrev S_ : Shape := ⟨0, ![]⟩
abbrev S8x1x1024x4 : Shape := ⟨4, ![8, 1, 1024, 4]⟩
abbrev S8x1024x1x4 : Shape := ⟨4, ![8, 1024, 1, 4]⟩
abbrev S8x1024x1024x4 : Shape := ⟨4, ![8, 1024, 1024, 4]⟩
abbrev S1x1024x1024x1 : Shape := ⟨4, ![1, 1024, 1024, 1]⟩
abbrev S8x1024x1024x1 : Shape := ⟨4, ![8, 1024, 1024, 1]⟩
abbrev S1x1024x4 : Shape := ⟨3, ![1, 1024, 4]⟩
abbrev S8x1024x1 : Shape := ⟨3, ![8, 1024, 1]⟩

abbrev nBuf : Space → Nat
  | .hbm => 45
  | .vmem => 0
  | .smem => 0
  | _ => 0

abbrev bufTy : (tb : Table) → Fin (tcTables nBuf tb) → BufTy
  | .hbm, ⟨0, _⟩ => ⟨S8x1024x4, .f32⟩
  | .hbm, ⟨1, _⟩ => ⟨S8x1024, .f32⟩
  | .hbm, ⟨2, _⟩ => ⟨S8x1024x1024, .f32⟩
  | .hbm, ⟨3, _⟩ => ⟨S1024x4, .f32⟩
  | .hbm, ⟨4, _⟩ => ⟨S1024x4, .f32⟩
  | .hbm, ⟨5, _⟩ => ⟨S1024x1024, .f32⟩
  | .hbm, ⟨6, _⟩ => ⟨S8x1024x1024, .f32⟩
  | .hbm, ⟨7, _⟩ => ⟨S8x1024x1024, .f32⟩
  | .hbm, ⟨8, _⟩ => ⟨S_, .f32⟩
  | .hbm, ⟨9, _⟩ => ⟨S8x1024x1024, .f32⟩
  | .hbm, ⟨10, _⟩ => ⟨S8x1024x1024, .f32⟩
  | .hbm, ⟨11, _⟩ => ⟨S_, .f32⟩
  | .hbm, ⟨12, _⟩ => ⟨S8x1024x1024, .f32⟩
  | .hbm, ⟨13, _⟩ => ⟨S8x1024x1024, .f32⟩
  | .hbm, ⟨14, _⟩ => ⟨S8x1x1024x4, .f32⟩
  | .hbm, ⟨15, _⟩ => ⟨S8x1024x1x4, .f32⟩
  | .hbm, ⟨16, _⟩ => ⟨S8x1024x1024x4, .f32⟩
  | .hbm, ⟨17, _⟩ => ⟨S8x1024x1024x4, .f32⟩
  | .hbm, ⟨18, _⟩ => ⟨S8x1024x1024x4, .f32⟩
  | .hbm, ⟨19, _⟩ => ⟨S1x1024x1024x1, .f32⟩
  | .hbm, ⟨20, _⟩ => ⟨S8x1024x1024x4, .f32⟩
  | .hbm, ⟨21, _⟩ => ⟨S8x1024x1024x4, .f32⟩
  | .hbm, ⟨22, _⟩ => ⟨S8x1024x1024x1, .f32⟩
  | .hbm, ⟨23, _⟩ => ⟨S8x1024x1024x4, .f32⟩
  | .hbm, ⟨24, _⟩ => ⟨S8x1024x1024x4, .f32⟩
  | .hbm, ⟨25, _⟩ => ⟨S8x1024x1024x4, .f32⟩
  | .hbm, ⟨26, _⟩ => ⟨S_, .f32⟩
  | .hbm, ⟨27, _⟩ => ⟨S8x1024x4, .f32⟩
  | .hbm, ⟨28, _⟩ => ⟨S_, .f32⟩
  | .hbm, ⟨29, _⟩ => ⟨S8x1024x4, .f32⟩
  | .hbm, ⟨30, _⟩ => ⟨S8x1024x4, .f32⟩
  | .hbm, ⟨31, _⟩ => ⟨S1x1024x4, .f32⟩
  | .hbm, ⟨32, _⟩ => ⟨S8x1024x4, .f32⟩
  | .hbm, ⟨33, _⟩ => ⟨S8x1024x4, .f32⟩
  | .hbm, ⟨34, _⟩ => ⟨S1x1024x4, .f32⟩
  | .hbm, ⟨35, _⟩ => ⟨S8x1024x1, .f32⟩
  | .hbm, ⟨36, _⟩ => ⟨S8x1024x4, .f32⟩
  | .hbm, ⟨37, _⟩ => ⟨S8x1024x4, .f32⟩
  | .hbm, ⟨38, _⟩ => ⟨S8x1024x4, .f32⟩
  | .hbm, ⟨39, _⟩ => ⟨S8x1024x4, .f32⟩
  | .hbm, ⟨40, _⟩ => ⟨S8x1024x4, .f32⟩
  | .hbm, ⟨41, _⟩ => ⟨S_, .f32⟩
  | .hbm, ⟨42, _⟩ => ⟨S8x1024x4, .f32⟩
  | .hbm, ⟨43, _⟩ => ⟨S8x1024x4, .f32⟩
  | .hbm, ⟨44, _⟩ => ⟨S8x1024x4, .f32⟩
  | _, _ => ⟨S8x1024x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]

class Facts₀ : Prop where
  transposes_S8x1024x1024_S8x1024x1024_0_2_1 : S8x1024x1024.Transposes [0, 2, 1] S8x1024x1024
  bcast_S_S8x1024x1024 : S_.BroadcastsInDim S8x1024x1024 (![] : Fin 0 → Fin S8x1024x1024.rank)
  bcast_S8x1024x4_S8x1x1024x4_0_2_3 : S8x1024x4.BroadcastsInDim S8x1x1024x4 (![0, 2, 3] : Fin 3 → Fin S8x1x1024x4.rank)
  bcast_S8x1024x4_S8x1024x1x4_0_1_3 : S8x1024x4.BroadcastsInDim S8x1024x1x4 (![0, 1, 3] : Fin 3 → Fin S8x1024x1x4.rank)
  bcast_S8x1x1024x4_S8x1024x1024x4_0_1_2_3 : S8x1x1024x4.BroadcastsInDim S8x1024x1024x4 (![0, 1, 2, 3] : Fin 4 → Fin S8x1024x1024x4.rank)
  bcast_S8x1024x1x4_S8x1024x1024x4_0_1_2_3 : S8x1024x1x4.BroadcastsInDim S8x1024x1024x4 (![0, 1, 2, 3] : Fin 4 → Fin S8x1024x1024x4.rank)
  bcast_S1024x1024_S1x1024x1024x1_1_2 : S1024x1024.BroadcastsInDim S1x1024x1024x1 (![1, 2] : Fin 2 → Fin S1x1024x1024x1.rank)
  bcast_S1x1024x1024x1_S8x1024x1024x4_0_1_2_3 : S1x1024x1024x1.BroadcastsInDim S8x1024x1024x4 (![0, 1, 2, 3] : Fin 4 → Fin S8x1024x1024x4.rank)
  bcast_S8x1024x1024_S8x1024x1024x1_0_1_2 : S8x1024x1024.BroadcastsInDim S8x1024x1024x1 (![0, 1, 2] : Fin 3 → Fin S8x1024x1024x1.rank)
  bcast_S8x1024x1024x1_S8x1024x1024x4_0_1_2_3 : S8x1024x1024x1.BroadcastsInDim S8x1024x1024x4 (![0, 1, 2, 3] : Fin 4 → Fin S8x1024x1024x4.rank)
  reducesTo_S8x1024x1024x4_S8x1024x4_d2 : S8x1024x1024x4.ReducesTo [2] S8x1024x4
  h_S_ : 0 < S_.numel
  bcast_S_S8x1024x4 : S_.BroadcastsInDim S8x1024x4 (![] : Fin 0 → Fin S8x1024x4.rank)
  bcast_S1024x4_S1x1024x4_1_2 : S1024x4.BroadcastsInDim S1x1024x4 (![1, 2] : Fin 2 → Fin S1x1024x4.rank)
  bcast_S1x1024x4_S8x1024x4_0_1_2 : S1x1024x4.BroadcastsInDim S8x1024x4 (![0, 1, 2] : Fin 3 → Fin S8x1024x4.rank)
  bcast_S8x1024_S8x1024x1_0_1 : S8x1024.BroadcastsInDim S8x1024x1 (![0, 1] : Fin 2 → Fin S8x1024x1.rank)
  bcast_S8x1024x1_S8x1024x4_0_1_2 : S8x1024x1.BroadcastsInDim S8x1024x4 (![0, 1, 2] : Fin 3 → Fin S8x1024x4.rank)

variable [Facts₀]

class Facts : Prop extends Facts₀ where

variable [Facts]
-- ==== Proof.KernelBody.lean ====
/-
  One grid point of the tiled phase-coupling kernel, as a separation-logic triple, and the program up to its region.

  The region has ten windows: the row tile of θ, the whole of θ for the batch, the row tile of γ (as a column), the
  row tile and the column tile of A, the row tiles of cos α and sin α, the row tiles of ω and κ, and the output's row
  tile. Two pairs of windows read one array each (θ twice, A twice). At a point the body loads every input block
  whole, computes, and stores the output block whole; so the output's staging buffer ends at one pure function
  `outBlock` of the nine input blocks — the store's payload laid over the buffer — and every input's buffer is left
  as found. Before the region the host writes three arrays (γ as a column, cos α, sin α); the region finds every
  buffer at `V`, the launch contents after those three operations.
-/
import proofs.«105893_j69965017252365_2_alg».proof.Proof.Gen.Kernel.Launch
import proofs.«105893_j69965017252365_2_alg».proof.Proof.Gen.Kernel.Skeleton
import proofs.«105893_j69965017252365_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch contents after the three host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is the three host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: every load and the store take a whole buffer -/

abbrev rTile : Rect S1x256x4 := Rect.unit (s := S1x256x4) ![0, 0, 0] S1x256x4.size inb_S1x256x4_S1x256x4_0_0_0
abbrev rFull : Rect S1x1024x4 := Rect.unit (s := S1x1024x4) ![0, 0, 0] S1x1024x4.size inb_S1x1024x4_S1x1024x4_0_0_0
abbrev rCol : Rect S1x256x1 := Rect.unit (s := S1x256x1) ![0, 0, 0] S1x256x1.size inb_S1x256x1_S1x256x1_0_0_0
abbrev rRow : Rect S1x256x1024 := Rect.unit (s := S1x256x1024) ![0, 0, 0] S1x256x1024.size inb_S1x256x1024_S1x256x1024_0_0_0
abbrev rColT : Rect S1x1024x256 := Rect.unit (s := S1x1024x256) ![0, 0, 0] S1x1024x256.size inb_S1x1024x256_S1x1024x256_0_0_0
abbrev rLag : Rect S256x1024 := Rect.unit (s := S256x1024) ![0, 0] S256x1024.size inb_S256x1024_S256x1024_0_0
abbrev rVec : Rect S256x4 := Rect.unit (s := S256x4) ![0, 0] S256x4.size inb_S256x4_S256x4_0_0

/-! ## What the body leaves in the output window's buffer -/

/-- The output's staging buffer after the body, from the nine input blocks: the one store's payload over the
    whole buffer. -/
def outBlock (x0 : Vec F S1x256x4 .f32) (x1 : Vec F S1x1024x4 .f32) (x2 : Vec F S1x256x1 .f32) (x3 : Vec F S1x256x1024 .f32)
    (x4 : Vec F S1x1024x256 .f32) (x5 x6 : Vec F S256x1024 .f32) (x7 x8 : Vec F S256x4 .f32) : Vec F S1x256x4 .f32 :=
  View.canon [⟨rTile, k0_pay1 (k0_pay2 (View.ld x0 rTile)) (k0_pay4 (View.ld x2 rCol))
    (k0_pay7 (View.ld x3 rRow) (View.ld x4 rColT) (View.ld x6 rLag)) (k0_pay9 (View.ld x1 rFull))
    (k0_pay10 (View.ld x1 rFull) (View.ld x3 rRow) (View.ld x4 rColT) (View.ld x5 rLag))
    (k0_pay11 (View.ld x1 rFull) (View.ld x3 rRow) (View.ld x4 rColT) (View.ld x5 rLag))
    (k0_pay12 (View.ld x1 rFull) (View.ld x3 rRow) (View.ld x4 rColT) (View.ld x6 rLag))
    (View.ld x7 rVec) (View.ld x8 rVec)⟩]

/-- The one store covers the buffer. -/
theorem outCover (p0 : Vec F S1x256x4 .f32) (y : S1x256x4.Idx) :
    ∃ pc ∈ ([⟨rTile, p0⟩] : List (View.Piece (Elt F) S1x256x4 .f32)), y ∈ pc.1.set :=
  View.cover_of_tiled [⟨rTile, p0⟩] S1x256x4.size (by rfl) y

/-! ## The body's triple -/

set_option maxHeartbeats 4000000 in
/-- The body on whole staging memrefs, the inputs' at contents `x0 … x8` and the output's at anything, runs to the
    continuation holding the inputs' as they were and the output's at `outBlock` of them. -/
theorem sound_kernel (c : Dev nD) (E : Set ℕ) (i : grid0.Coords)
    (arg2 : Memref sig .tc .vmem S1x256x4 .f32) (harg2 : arg2.IsWhole) (arg3 : Memref sig .tc .vmem S1x1024x4 .f32) (harg3 : arg3.IsWhole)
    (arg4 : Memref sig .tc .vmem S1x256x1 .f32) (harg4 : arg4.IsWhole) (arg5 : Memref sig .tc .vmem S1x256x1024 .f32) (harg5 : arg5.IsWhole)
    (arg6 : Memref sig .tc .vmem S1x1024x256 .f32) (harg6 : arg6.IsWhole) (arg7 : Memref sig .tc .vmem S256x1024 .f32) (harg7 : arg7.IsWhole)
    (arg8 : Memref sig .tc .vmem S256x1024 .f32) (harg8 : arg8.IsWhole) (arg9 : Memref sig .tc .vmem S256x4 .f32) (harg9 : arg9.IsWhole)
    (arg10 : Memref sig .tc .vmem S256x4 .f32) (harg10 : arg10.IsWhole) (arg11 : Memref sig .tc .vmem S1x256x4 .f32) (harg11 : arg11.IsWhole)
    (x0 : Vec F S1x256x4 .f32) (x1 : Vec F S1x1024x4 .f32) (x2 : Vec F S1x256x1 .f32) (x3 : Vec F S1x256x1024 .f32)
    (x4 : Vec F S1x1024x256 .f32) (x5 x6 : Vec F S256x1024 .f32) (x7 x8 : Vec F S256x4 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ owns (c : Thread nD τ) arg10 fullShare x8
        ∗ (∃ d, owns (c : Thread nD τ) arg11 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7 ∗ owns (c : Thread nD τ) arg10 fullShare x8
            ∗ owns (c : Thread nD τ) arg11 fullShare (outBlock x0 x1 x2 x3 x4 x5 x6 x7 x8)) -∗ K ⟨⟩))
      ⊢ wp frame (wpE (defs₀ (F := F)) Variants.none c none) E
          (cc0__kernel i arg2 harg2 arg3 harg3 arg4 harg4 arg5 harg5 arg6 harg6 arg7 harg7 arg8 harg8 arg9 harg9 arg10 harg10 arg11 harg11) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (outCover _)

end Cert.Kernel.Hand

end
-- ==== Proof.KernelFrame.lean ====
/-
  The tiled phase-coupling kernel's run: every weakly fair execution of the program terminates without a fault, the
  argument arrays end unchanged, and the output array ends at what the library computes from the blocks the grid
  points wrote back.

  Two arrays are read through two windows each — θ through its row tile and through the whole batch slab, A through
  its row tile and its column tile. The pipeline library deals every array to its window at the full share when the
  arrays are pairwise distinct; here the full share of θ and of A is split in halves between the two windows that
  read them (`arrays_split`), and the region is launched with that split. Every input window's staging buffer holds
  its block at every point (fetched there or not: the block index has not moved), the body leaves the inputs' buffers
  as found and the output's at `outBlock` of the nine input blocks, and nothing else is carried between points.
-/
import proofs.«105893_j69965017252365_2_alg».proof.Proof.KernelBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each input window's staging buffer holds its block at every point -/

theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data of the one pipeline on core `c`: the arrays as the region finds them; after the body at point `t`
    each input's buffer at its block and the output's at `outBlock` of the input blocks; between points only the
    core's scoped buffers that are no staging buffer; nothing owed; θ and A held in halves by the two windows that
    read each, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlock (iblk m c 0 t) (iblk m c 1 t) (iblk m c 2 t) (iblk m c 3 t) (iblk m c 4 t) (iblk m c 5 t) (iblk m c 6 t) (iblk m c 7 t) (iblk m c 8 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare.left
    | ⟨4, _⟩ => fullShare.right
    | ⟨5, _⟩ => fullShare
    | ⟨6, _⟩ => fullShare
    | ⟨7, _⟩ => fullShare
    | ⟨8, _⟩ => fullShare
    | ⟨9, _⟩ => fullShare
  owed _ := 0

theorem Phi_eq (c : Dev nD) (t : Fin (cfg0.N + 1)) : (dats m 0 c).Φ t
    = Pipeline.scopedRest (Ix := Unit) (Name := ℕ) (U := UR sig nD τ) (Lvl := ℕ) (Val := Elt F) spec0 c := by
  dsimp only [dats]

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = outBlock (iblk m c 0 t) (iblk m c 1 t) (iblk m c 2 t) (iblk m c 3 t) (iblk m c 4 t) (iblk m c 5 t) (iblk m c 6 t) (iblk m c 7 t) (iblk m c 8 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1000000 in
/-- The body at any point: the inputs' memrefs hold their blocks, so `sound_kernel` applies; the invariant and the
    core's tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m 0 c) (defs₀ (F := F)) Variants.none () Set.univ := fun t => by
  rw [bigSep_W0, bigSep_W0]
  exact sound_body m c t

/-! ## The arrays dealt to the windows -/

/-- The eight distinct buffers behind the ten windows' arrays, each whole at the full share, make the proof data's
    arrays at entry: θ's and A's full shares are each split in halves between the two windows that read them. -/
theorem arrays_split (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_W0, bigSep_eq_bigSepL_of_eq [main_arg0, main_v0, main_arg2, main_v1, main_v2, main_arg3, main_arg4, main_v3] (by decide) (by decide) _]
  rw [show (bigSepL [main_arg0, main_v0, main_arg2, main_v1, main_v2, main_arg3, main_arg4, main_v3]
        fun b => ((((c.tc : Thread nD τ).loc b) ↦{fullShare} V m c b) : sProp 𝕄))
      = iprop((((c.tc : Thread nD τ).loc main_arg0) ↦{fullShare} V m c main_arg0) ∗ (((c.tc : Thread nD τ).loc main_v0) ↦{fullShare} V m c main_v0) ∗ (((c.tc : Thread nD τ).loc main_arg2) ↦{fullShare} V m c main_arg2) ∗ (((c.tc : Thread nD τ).loc main_v1) ↦{fullShare} V m c main_v1) ∗ (((c.tc : Thread nD τ).loc main_v2) ↦{fullShare} V m c main_v2) ∗ (((c.tc : Thread nD τ).loc main_arg3) ↦{fullShare} V m c main_arg3) ∗ (((c.tc : Thread nD τ).loc main_arg4) ↦{fullShare} V m c main_arg4) ∗ (((c.tc : Thread nD τ).loc main_v3) ↦{fullShare} V m c main_v3)) from rfl]
  rw [(arr_whole0 0).set_eq_univ, (arr_whole0 2).set_eq_univ, (arr_whole0 3).set_eq_univ,
    (arr_whole0 5).set_eq_univ, (arr_whole0 6).set_eq_univ, (arr_whole0 7).set_eq_univ, (arr_whole0 8).set_eq_univ, (arr_whole0 9).set_eq_univ]
  iintro ⟨H0, Hg, H2, Hc, Hs, Hw, Hk, Ho⟩
  ihave H0 := (pointsTo_share (PosShare.mem_left_op_right fullShare)).1 $$ H0
  icases H0 with ⟨H0l, H0r⟩
  ihave H2 := (pointsTo_share (PosShare.mem_left_op_right fullShare)).1 $$ H2
  icases H2 with ⟨H2l, H2r⟩
  isplitl [H0l]; · iexact H0l
  isplitl [H0r]; · iexact H0r
  isplitl [Hg]; · iexact Hg
  isplitl [H2l]; · iexact H2l
  isplitl [H2r]; · iexact H2r
  isplitl [Hc]; · iexact Hc
  isplitl [Hs]; · iexact Hs
  isplitl [Hw]; · iexact Hw
  isplitl [Hk]; · iexact Hk
  iexact Ho

/-! ## The run -/

/-- Every weakly fair execution of the program terminates without a fault; every window's array ends at what the
    library computes from the proof data (an input's as it was, the output's overwritten block by block), and the two
    buffers no window reads (γ and α as launched) end as the region found them. -/
theorem run_main : θ_run defs (onTc (τ := τ) (main (F := F))) ⟨m, fun _ => 0, ρ⟩ (Pipeline.FramePost cfgs (dats m) 0 (V m)) :=
  Pipeline.θ_run_region_noSem_shared cfgs (dats m) () cellOf_inj (0 : Fin 1) winFacts₀0 emb₁ defs₀ Variants.none m ρ main
    (fun c => (body_obligation m c).loose) block_pos0 arr_whole0 stage_whole0 (fun _ _ => rfl)
    (initOf (Pipeline.cells cfgs cellOf_inj) (Pipeline.launchToks cfgs cellOf_inj)) .rfl (V m) (hmain m Variants.none) (arrays_split m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr [H]; · iempintro
      iexact H)
    (hin := fun c => by
      rw [Phi_eq]
      iintro ⟨-, H⟩
      iexact H)
    (hout := fun c => by
      rw [Phi_eq]
      iintro H
      isplitr [H]; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => h c)

/-- The frame: the six argument arrays end as launched. Four are read by windows and never written; two bypass the
    region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of main_arg1 (by decide) (by decide))).trans (V_main_arg1 m c),
     ((h c).1 3).trans (((dats m 0 c).arrAt_in 3 rfl _).trans ((A_eq m c 3).trans (V_main_arg2 m c))),
     ((h c).1 7).trans (((dats m 0 c).arrAt_in 7 rfl _).trans ((A_eq m c 7).trans (V_main_arg3 m c))),
     ((h c).1 8).trans (((dats m 0 c).arrAt_in 8 rfl _).trans ((A_eq m c 8).trans (V_main_arg4 m c))),
     ((h c).2 main_arg5 (Pipeline.mem_restRefs_of main_arg5 (by decide) (by decide))).trans (V_main_arg5 m c)⟩) (run_main m ρ)

end Cert.Kernel.Hand

end
-- ==== Proof.KernelIdealBody.lean ====
/-
  One grid point of the tiled phase-coupling kernel, as a separation-logic triple, and the program up to its region.

  The region has ten windows: the row tile of θ, the whole of θ for the batch, the row tile of γ (as a column), the
  row tile and the column tile of A, the row tiles of cos α and sin α, the row tiles of ω and κ, and the output's row
  tile. Two pairs of windows read one array each (θ twice, A twice). At a point the body loads every input block
  whole, computes, and stores the output block whole; so the output's staging buffer ends at one pure function
  `outBlock` of the nine input blocks — the store's payload laid over the buffer — and every input's buffer is left
  as found. Before the region the host writes three arrays (γ as a column, cos α, sin α); the region finds every
  buffer at `V`, the launch contents after those three operations.
-/
import proofs.«105893_j69965017252365_2_alg».proof.Proof.Gen.KernelIdeal.Launch
import proofs.«105893_j69965017252365_2_alg».proof.Proof.Gen.KernelIdeal.Skeleton
import proofs.«105893_j69965017252365_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch contents after the three host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is the three host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: every load and the store take a whole buffer -/

abbrev rTile : Rect S1x256x4 := Rect.unit (s := S1x256x4) ![0, 0, 0] S1x256x4.size inb_S1x256x4_S1x256x4_0_0_0
abbrev rFull : Rect S1x1024x4 := Rect.unit (s := S1x1024x4) ![0, 0, 0] S1x1024x4.size inb_S1x1024x4_S1x1024x4_0_0_0
abbrev rCol : Rect S1x256x1 := Rect.unit (s := S1x256x1) ![0, 0, 0] S1x256x1.size inb_S1x256x1_S1x256x1_0_0_0
abbrev rRow : Rect S1x256x1024 := Rect.unit (s := S1x256x1024) ![0, 0, 0] S1x256x1024.size inb_S1x256x1024_S1x256x1024_0_0_0
abbrev rColT : Rect S1x1024x256 := Rect.unit (s := S1x1024x256) ![0, 0, 0] S1x1024x256.size inb_S1x1024x256_S1x1024x256_0_0_0
abbrev rLag : Rect S256x1024 := Rect.unit (s := S256x1024) ![0, 0] S256x1024.size inb_S256x1024_S256x1024_0_0
abbrev rVec : Rect S256x4 := Rect.unit (s := S256x4) ![0, 0] S256x4.size inb_S256x4_S256x4_0_0

/-! ## What the body leaves in the output window's buffer -/

/-- The output's staging buffer after the body, from the nine input blocks: the one store's payload over the
    whole buffer. -/
def outBlock (x0 : Vec F S1x256x4 .f32) (x1 : Vec F S1x1024x4 .f32) (x2 : Vec F S1x256x1 .f32) (x3 : Vec F S1x256x1024 .f32)
    (x4 : Vec F S1x1024x256 .f32) (x5 x6 : Vec F S256x1024 .f32) (x7 x8 : Vec F S256x4 .f32) : Vec F S1x256x4 .f32 :=
  View.canon [⟨rTile, k0_pay1 (k0_pay2 (View.ld x0 rTile)) (k0_pay4 (View.ld x2 rCol))
    (k0_pay7 (View.ld x3 rRow) (View.ld x4 rColT) (View.ld x6 rLag)) (k0_pay9 (View.ld x1 rFull))
    (k0_pay10 (View.ld x1 rFull) (View.ld x3 rRow) (View.ld x4 rColT) (View.ld x5 rLag))
    (k0_pay11 (View.ld x1 rFull) (View.ld x3 rRow) (View.ld x4 rColT) (View.ld x5 rLag))
    (k0_pay12 (View.ld x1 rFull) (View.ld x3 rRow) (View.ld x4 rColT) (View.ld x6 rLag))
    (View.ld x7 rVec) (View.ld x8 rVec)⟩]

/-- The one store covers the buffer. -/
theorem outCover (p0 : Vec F S1x256x4 .f32) (y : S1x256x4.Idx) :
    ∃ pc ∈ ([⟨rTile, p0⟩] : List (View.Piece (Elt F) S1x256x4 .f32)), y ∈ pc.1.set :=
  View.cover_of_tiled [⟨rTile, p0⟩] S1x256x4.size (by rfl) y

/-! ## The body's triple -/

set_option maxHeartbeats 4000000 in
/-- The body on whole staging memrefs, the inputs' at contents `x0 … x8` and the output's at anything, runs to the
    continuation holding the inputs' as they were and the output's at `outBlock` of them. -/
theorem sound_kernel (c : Dev nD) (E : Set ℕ) (i : grid0.Coords)
    (arg2 : Memref sig .tc .vmem S1x256x4 .f32) (harg2 : arg2.IsWhole) (arg3 : Memref sig .tc .vmem S1x1024x4 .f32) (harg3 : arg3.IsWhole)
    (arg4 : Memref sig .tc .vmem S1x256x1 .f32) (harg4 : arg4.IsWhole) (arg5 : Memref sig .tc .vmem S1x256x1024 .f32) (harg5 : arg5.IsWhole)
    (arg6 : Memref sig .tc .vmem S1x1024x256 .f32) (harg6 : arg6.IsWhole) (arg7 : Memref sig .tc .vmem S256x1024 .f32) (harg7 : arg7.IsWhole)
    (arg8 : Memref sig .tc .vmem S256x1024 .f32) (harg8 : arg8.IsWhole) (arg9 : Memref sig .tc .vmem S256x4 .f32) (harg9 : arg9.IsWhole)
    (arg10 : Memref sig .tc .vmem S256x4 .f32) (harg10 : arg10.IsWhole) (arg11 : Memref sig .tc .vmem S1x256x4 .f32) (harg11 : arg11.IsWhole)
    (x0 : Vec F S1x256x4 .f32) (x1 : Vec F S1x1024x4 .f32) (x2 : Vec F S1x256x1 .f32) (x3 : Vec F S1x256x1024 .f32)
    (x4 : Vec F S1x1024x256 .f32) (x5 x6 : Vec F S256x1024 .f32) (x7 x8 : Vec F S256x4 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ owns (c : Thread nD τ) arg10 fullShare x8
        ∗ (∃ d, owns (c : Thread nD τ) arg11 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7 ∗ owns (c : Thread nD τ) arg10 fullShare x8
            ∗ owns (c : Thread nD τ) arg11 fullShare (outBlock x0 x1 x2 x3 x4 x5 x6 x7 x8)) -∗ K ⟨⟩))
      ⊢ wp frame (wpE (defs₀ (F := F)) Variants.none c none) E
          (cc0__kernel i arg2 harg2 arg3 harg3 arg4 harg4 arg5 harg5 arg6 harg6 arg7 harg7 arg8 harg8 arg9 harg9 arg10 harg10 arg11 harg11) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (outCover _)

end Cert.KernelIdeal.Hand

end
-- ==== Proof.KernelIdealFrame.lean ====
/-
  The tiled phase-coupling kernel's run: every weakly fair execution of the program terminates without a fault, the
  argument arrays end unchanged, and the output array ends at what the library computes from the blocks the grid
  points wrote back.

  Two arrays are read through two windows each — θ through its row tile and through the whole batch slab, A through
  its row tile and its column tile. The pipeline library deals every array to its window at the full share when the
  arrays are pairwise distinct; here the full share of θ and of A is split in halves between the two windows that
  read them (`arrays_split`), and the region is launched with that split. Every input window's staging buffer holds
  its block at every point (fetched there or not: the block index has not moved), the body leaves the inputs' buffers
  as found and the output's at `outBlock` of the nine input blocks, and nothing else is carried between points.
-/
import proofs.«105893_j69965017252365_2_alg».proof.Proof.KernelIdealBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each input window's staging buffer holds its block at every point -/

theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data of the one pipeline on core `c`: the arrays as the region finds them; after the body at point `t`
    each input's buffer at its block and the output's at `outBlock` of the input blocks; between points only the
    core's scoped buffers that are no staging buffer; nothing owed; θ and A held in halves by the two windows that
    read each, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlock (iblk m c 0 t) (iblk m c 1 t) (iblk m c 2 t) (iblk m c 3 t) (iblk m c 4 t) (iblk m c 5 t) (iblk m c 6 t) (iblk m c 7 t) (iblk m c 8 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare.left
    | ⟨4, _⟩ => fullShare.right
    | ⟨5, _⟩ => fullShare
    | ⟨6, _⟩ => fullShare
    | ⟨7, _⟩ => fullShare
    | ⟨8, _⟩ => fullShare
    | ⟨9, _⟩ => fullShare
  owed _ := 0

theorem Phi_eq (c : Dev nD) (t : Fin (cfg0.N + 1)) : (dats m 0 c).Φ t
    = Pipeline.scopedRest (Ix := Unit) (Name := ℕ) (U := UR sig nD τ) (Lvl := ℕ) (Val := Elt F) spec0 c := by
  dsimp only [dats]

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = outBlock (iblk m c 0 t) (iblk m c 1 t) (iblk m c 2 t) (iblk m c 3 t) (iblk m c 4 t) (iblk m c 5 t) (iblk m c 6 t) (iblk m c 7 t) (iblk m c 8 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1000000 in
/-- The body at any point: the inputs' memrefs hold their blocks, so `sound_kernel` applies; the invariant and the
    core's tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m 0 c) (defs₀ (F := F)) Variants.none () Set.univ := fun t => by
  rw [bigSep_W0, bigSep_W0]
  exact sound_body m c t

/-! ## The arrays dealt to the windows -/

/-- The eight distinct buffers behind the ten windows' arrays, each whole at the full share, make the proof data's
    arrays at entry: θ's and A's full shares are each split in halves between the two windows that read them. -/
theorem arrays_split (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_W0, bigSep_eq_bigSepL_of_eq [main_arg0, main_v0, main_arg2, main_v1, main_v2, main_arg3, main_arg4, main_v3] (by decide) (by decide) _]
  rw [show (bigSepL [main_arg0, main_v0, main_arg2, main_v1, main_v2, main_arg3, main_arg4, main_v3]
        fun b => ((((c.tc : Thread nD τ).loc b) ↦{fullShare} V m c b) : sProp 𝕄))
      = iprop((((c.tc : Thread nD τ).loc main_arg0) ↦{fullShare} V m c main_arg0) ∗ (((c.tc : Thread nD τ).loc main_v0) ↦{fullShare} V m c main_v0) ∗ (((c.tc : Thread nD τ).loc main_arg2) ↦{fullShare} V m c main_arg2) ∗ (((c.tc : Thread nD τ).loc main_v1) ↦{fullShare} V m c main_v1) ∗ (((c.tc : Thread nD τ).loc main_v2) ↦{fullShare} V m c main_v2) ∗ (((c.tc : Thread nD τ).loc main_arg3) ↦{fullShare} V m c main_arg3) ∗ (((c.tc : Thread nD τ).loc main_arg4) ↦{fullShare} V m c main_arg4) ∗ (((c.tc : Thread nD τ).loc main_v3) ↦{fullShare} V m c main_v3)) from rfl]
  rw [(arr_whole0 0).set_eq_univ, (arr_whole0 2).set_eq_univ, (arr_whole0 3).set_eq_univ,
    (arr_whole0 5).set_eq_univ, (arr_whole0 6).set_eq_univ, (arr_whole0 7).set_eq_univ, (arr_whole0 8).set_eq_univ, (arr_whole0 9).set_eq_univ]
  iintro ⟨H0, Hg, H2, Hc, Hs, Hw, Hk, Ho⟩
  ihave H0 := (pointsTo_share (PosShare.mem_left_op_right fullShare)).1 $$ H0
  icases H0 with ⟨H0l, H0r⟩
  ihave H2 := (pointsTo_share (PosShare.mem_left_op_right fullShare)).1 $$ H2
  icases H2 with ⟨H2l, H2r⟩
  isplitl [H0l]; · iexact H0l
  isplitl [H0r]; · iexact H0r
  isplitl [Hg]; · iexact Hg
  isplitl [H2l]; · iexact H2l
  isplitl [H2r]; · iexact H2r
  isplitl [Hc]; · iexact Hc
  isplitl [Hs]; · iexact Hs
  isplitl [Hw]; · iexact Hw
  isplitl [Hk]; · iexact Hk
  iexact Ho

/-! ## The run -/

/-- Every weakly fair execution of the program terminates without a fault; every window's array ends at what the
    library computes from the proof data (an input's as it was, the output's overwritten block by block), and the two
    buffers no window reads (γ and α as launched) end as the region found them. -/
theorem run_main : θ_run defs (onTc (τ := τ) (main (F := F))) ⟨m, fun _ => 0, ρ⟩ (Pipeline.FramePost cfgs (dats m) 0 (V m)) :=
  Pipeline.θ_run_region_noSem_shared cfgs (dats m) () cellOf_inj (0 : Fin 1) winFacts₀0 emb₁ defs₀ Variants.none m ρ main
    (fun c => (body_obligation m c).loose) block_pos0 arr_whole0 stage_whole0 (fun _ _ => rfl)
    (initOf (Pipeline.cells cfgs cellOf_inj) (Pipeline.launchToks cfgs cellOf_inj)) .rfl (V m) (hmain m Variants.none) (arrays_split m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr [H]; · iempintro
      iexact H)
    (hin := fun c => by
      rw [Phi_eq]
      iintro ⟨-, H⟩
      iexact H)
    (hout := fun c => by
      rw [Phi_eq]
      iintro H
      isplitr [H]; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => h c)

/-- The frame: the six argument arrays end as launched. Four are read by windows and never written; two bypass the
    region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of main_arg1 (by decide) (by decide))).trans (V_main_arg1 m c),
     ((h c).1 3).trans (((dats m 0 c).arrAt_in 3 rfl _).trans ((A_eq m c 3).trans (V_main_arg2 m c))),
     ((h c).1 7).trans (((dats m 0 c).arrAt_in 7 rfl _).trans ((A_eq m c 7).trans (V_main_arg3 m c))),
     ((h c).1 8).trans (((dats m 0 c).arrAt_in 8 rfl _).trans ((A_eq m c 8).trans (V_main_arg4 m c))),
     ((h c).2 main_arg5 (Pipeline.mem_restRefs_of main_arg5 (by decide) (by decide))).trans (V_main_arg5 m c)⟩) (run_main m ρ)

end Cert.KernelIdeal.Hand

end
-- ==== Proof.KernelForm.lean ====
/-
  The coupled-oscillator update as the tiled kernel computes it, entry by entry, on the extended reals.

  For batch `b`, row `i` and component `d`, with x = θ[b,i,d], the lateral weight
  a_j = max(h · (A[b,i,j] + A[b,j,i]), 0) · s, the weights P_j = a_j · cos α[i,j] and Q_j = a_j · sin α[i,j], and
  S_j = sin θ[b,j,d], C_j = cos θ[b,j,d], the kernel forms the four sums ΣP·S, ΣP·C, ΣQ·S, ΣQ·C over j and returns
    x + 1 · ((ω[i,d] + (cos x · (ΣP·S − ΣQ·C) − sin x · (ΣQ·S + ΣP·C))) + κ[i,d] · (γ[b,i] − x)).
  The constants `h`, `z`, `s`, `u` are the program's four float literals (one half, zero, 2⁻¹⁰, one), kept as
  their bit patterns.
-/
import Idealize.ShloMosaic.PureOps.Ideal
import Idealize.ShloMosaic.Lib.ValueIdx

noncomputable section

namespace Kuramoto

open Idealize.ShloMosaic Idealize.ShloMosaic.ValueIdx
open scoped BigOperators

/-- The index types of the six argument arrays and of the result. -/
abbrev I8x1024x4 : Type := (⟨3, ![8, 1024, 4]⟩ : Shape).Idx
abbrev I8x1024 : Type := (⟨2, ![8, 1024]⟩ : Shape).Idx
abbrev I8x1024x1024 : Type := (⟨3, ![8, 1024, 1024]⟩ : Shape).Idx
abbrev I1024x4 : Type := (⟨2, ![1024, 4]⟩ : Shape).Idx
abbrev I1024x1024 : Type := (⟨2, ![1024, 1024]⟩ : Shape).Idx

/-- The program's float literals at the exact instance: one half, zero, 2⁻¹⁰ and one. -/
abbrev cHalf : EReal := Ideal.ofBits .f32 0x3F000000#32
abbrev cZero : EReal := Ideal.ofBits .f32 0x00000000#32
abbrev cScale : EReal := Ideal.ofBits .f32 0x3A800000#32
abbrev cOne : EReal := Ideal.ofBits .f32 0x3F800000#32

variable (θ : I8x1024x4 → EReal) (γ : I8x1024 → EReal) (A : I8x1024x1024 → EReal)
  (ω κ : I1024x4 → EReal) (α : I1024x1024 → EReal)

/-- The scaled lateral weight between rows `i` and `j` of batch `b`: the symmetrized entry, halved, clipped at zero
    from below, then scaled. -/
def lat (b : Fin 8) (i j : Fin 1024) : EReal :=
  max (cHalf * (A (ix3 b i j) + A (ix3 b j i))) cZero * cScale

/-- The weights against the cosine and the sine of the phase lag. -/
def wCos (b : Fin 8) (i j : Fin 1024) : EReal := lat A b i j * Ideal.cos (α (ix2 i j))
def wSin (b : Fin 8) (i j : Fin 1024) : EReal := lat A b i j * Ideal.sin (α (ix2 i j))

/-- The kernel's result at `(b, i, d)`: four weighted sums over the other rows, recombined with the row's own sine
    and cosine. -/
def kernelForm (b : Fin 8) (i : Fin 1024) (d : Fin 4) : EReal :=
  θ (ix3 b i d) + cOne *
    ((ω (ix2 i d) +
        (Ideal.cos (θ (ix3 b i d)) *
            ((∑ j : Fin 1024, wCos A α b i j * Ideal.sin (θ (ix3 b j d)))
              - (∑ j : Fin 1024, wSin A α b i j * Ideal.cos (θ (ix3 b j d))))
          - Ideal.sin (θ (ix3 b i d)) *
            ((∑ j : Fin 1024, wSin A α b i j * Ideal.sin (θ (ix3 b j d)))
              + (∑ j : Fin 1024, wCos A α b i j * Ideal.cos (θ (ix3 b j d))))))
      + κ (ix2 i d) * (γ (ix2 b i) - θ (ix3 b i d)))

end Kuramoto

end
-- ==== Proof.BlockForm.lean ====
/-
  One output block of the phase-coupling kernel as a function of the nine input blocks, entry by entry, and that it is
  the whole-array formula once each block entry is named as the array entry it was read from.

  In a block, row `r` of the 256-row tile stands for row `i` of the array; the whole-θ slab and the two A tiles run
  over all 1024 partner rows `j`. `blockForm` mirrors `Kuramoto.kernelForm` term for term with block entries in
  place of array entries, so the two agree as soon as the entries do.
-/
import proofs.«105893_j69965017252365_2_alg».proof.Proof.KernelForm

noncomputable section

namespace Kuramoto

open Idealize.ShloMosaic Idealize.ShloMosaic.ValueIdx
open scoped BigOperators

/-- The index types of the nine input blocks. -/
abbrev B1x256x4 : Type := (⟨3, ![1, 256, 4]⟩ : Shape).Idx
abbrev B1x1024x4 : Type := (⟨3, ![1, 1024, 4]⟩ : Shape).Idx
abbrev B1x256x1 : Type := (⟨3, ![1, 256, 1]⟩ : Shape).Idx
abbrev B1x256x1024 : Type := (⟨3, ![1, 256, 1024]⟩ : Shape).Idx
abbrev B1x1024x256 : Type := (⟨3, ![1, 1024, 256]⟩ : Shape).Idx
abbrev B256x1024 : Type := (⟨2, ![256, 1024]⟩ : Shape).Idx
abbrev B256x4 : Type := (⟨2, ![256, 4]⟩ : Shape).Idx

variable (x0 : B1x256x4 → EReal) (x1 : B1x1024x4 → EReal) (x2 : B1x256x1 → EReal) (x3 : B1x256x1024 → EReal)
  (x4 : B1x1024x256 → EReal) (x5 x6 : B256x1024 → EReal) (x7 x8 : B256x4 → EReal)

/-- The scaled lateral weight of tile row `r` against partner row `j`, from A's row tile and its column tile. -/
def blockLat (r : Fin 256) (j : Fin 1024) : EReal :=
  max (cHalf * (x3 (ix3 0 r j) + x4 (ix3 0 j r))) cZero * cScale

/-- The output block at tile row `r`, component `d`. -/
def blockForm (r : Fin 256) (d : Fin 4) : EReal :=
  x0 (ix3 0 r d) + cOne *
    ((x7 (ix2 r d) +
        (Ideal.cos (x0 (ix3 0 r d)) *
            ((∑ j : Fin 1024, (blockLat x3 x4 r j * x5 (ix2 r j)) * Ideal.sin (x1 (ix3 0 j d)))
              - (∑ j : Fin 1024, (blockLat x3 x4 r j * x6 (ix2 r j)) * Ideal.cos (x1 (ix3 0 j d))))
          - Ideal.sin (x0 (ix3 0 r d)) *
            ((∑ j : Fin 1024, (blockLat x3 x4 r j * x6 (ix2 r j)) * Ideal.sin (x1 (ix3 0 j d)))
              + (∑ j : Fin 1024, (blockLat x3 x4 r j * x5 (ix2 r j)) * Ideal.cos (x1 (ix3 0 j d))))))
      + x8 (ix2 r d) * (x2 (ix3 0 r 0) - x0 (ix3 0 r d)))

/-- The block formula is the array formula at `(b, i, d)` when each block entry it reads is the array entry there:
    the θ tile and the γ, A-row, cos α, sin α, ω, κ tiles at row `i`, the θ slab at every row, the A column tile at
    column `i`. -/
theorem blockForm_eq_kernelForm (θ : I8x1024x4 → EReal) (γ : I8x1024 → EReal) (A : I8x1024x1024 → EReal)
    (ω κ : I1024x4 → EReal) (α : I1024x1024 → EReal) (b : Fin 8) (i : Fin 1024) (r : Fin 256) (d : Fin 4)
    (h0 : x0 (ix3 0 r d) = θ (ix3 b i d)) (h1 : ∀ j, x1 (ix3 0 j d) = θ (ix3 b j d)) (h2 : x2 (ix3 0 r 0) = γ (ix2 b i))
    (h3 : ∀ j, x3 (ix3 0 r j) = A (ix3 b i j)) (h4 : ∀ j, x4 (ix3 0 j r) = A (ix3 b j i))
    (h5 : ∀ j, x5 (ix2 r j) = Ideal.cos (α (ix2 i j))) (h6 : ∀ j, x6 (ix2 r j) = Ideal.sin (α (ix2 i j)))
    (h7 : x7 (ix2 r d) = ω (ix2 i d)) (h8 : x8 (ix2 r d) = κ (ix2 i d)) :
    blockForm x0 x1 x2 x3 x4 x5 x6 x7 x8 r d = kernelForm θ γ A ω κ α b i d := by
  unfold blockForm kernelForm wCos wSin lat blockLat
  simp only [h0, h1, h2, h3, h4, h5, h6, h7, h8]

end Kuramoto

end
-- ==== Proof.KernelIdealPayload.lean ====
/-
  The kernel body's one store, read entry by entry at the exact instance: the output block is `Kuramoto.blockForm`
  of the nine input blocks.

  Every load and the store go through the whole staging buffer, so the stored block is the payload of the loaded
  blocks. The payload is read bottom up: the leading unit axis of each rank-three block is dropped by a shape cast;
  the A column tile is transposed, added to the A row tile, halved, clipped at zero and scaled; that weight times the
  cos α and sin α tiles gives the two left factors; the sine and cosine of the θ slab give the two right factors; each
  of the four matrix products, started from zero, is at (r, d) the sum over the 1024 partner rows of left (r, j) times
  right (j, d); the tail recombines them pointwise with the row's own cosine and sine, adds ω and κ·(γ − θ), scales
  by the unit literal and adds θ. Narrowing to sixteen bits is the identity at the exact instance.
-/
import proofs.«105893_j69965017252365_2_alg».proof.Proof.KernelIdealBody
import proofs.«105893_j69965017252365_2_alg».proof.Proof.BlockForm
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Kuramoto Idealize.ShloMosaic Idealize.ShloMosaic.ValueIdx
open scoped BigOperators

/-! ## The zero offsets -/

theorem zero3 : (![0, 0, 0] : Fin 3 → Nat) = fun _ => 0 :=
  funext fun a => by match a with | ⟨0, _⟩ => rfl | ⟨1, _⟩ => rfl | ⟨2, _⟩ => rfl
theorem zero2 : (![0, 0] : Fin 2 → Nat) = fun _ => 0 :=
  funext fun a => by match a with | ⟨0, _⟩ => rfl | ⟨1, _⟩ => rfl

/-! ## A matrix product into zero, at (r, d) -/

theorem lhs_row (i : S256x4.Idx) (q : dot_S256x1024_S1024x4_S256x4_1_0_0_1_n_n.contr.Idx) :
    (dot_S256x1024_S1024x4_S256x4_1_0_0_1_n_n.lhsIdx i q 0).val = (i 0).val := by
  unfold DotDims.lhsIdx
  rw [dif_neg (show ¬(0 : Fin S256x1024.rank) ∈ dot_S256x1024_S1024x4_S256x4_1_0_0_1_n_n.lhsBatch by decide),
    dif_pos (show (0 : Fin S256x1024.rank) ∈ dot_S256x1024_S1024x4_S256x4_1_0_0_1_n_n.lhsNonContracting by decide)]
  rfl
theorem lhs_contr (i : S256x4.Idx) (q : dot_S256x1024_S1024x4_S256x4_1_0_0_1_n_n.contr.Idx) :
    (dot_S256x1024_S1024x4_S256x4_1_0_0_1_n_n.lhsIdx i q 1).val = (q ⟨0, by decide⟩).val :=
  dot_S256x1024_S1024x4_S256x4_1_0_0_1_n_n.lhsIdx_val_of_single rfl i q
theorem rhs_contr (i : S256x4.Idx) (q : dot_S256x1024_S1024x4_S256x4_1_0_0_1_n_n.contr.Idx) :
    (dot_S256x1024_S1024x4_S256x4_1_0_0_1_n_n.rhsIdx i q 0).val = (q ⟨0, by decide⟩).val :=
  dot_S256x1024_S1024x4_S256x4_1_0_0_1_n_n.rhsIdx_val_of_single rfl i q
theorem rhs_col (i : S256x4.Idx) (q : dot_S256x1024_S1024x4_S256x4_1_0_0_1_n_n.contr.Idx) :
    (dot_S256x1024_S1024x4_S256x4_1_0_0_1_n_n.rhsIdx i q 1).val = (i 1).val := by
  unfold DotDims.rhsIdx
  rw [dif_neg (show ¬(1 : Fin S1024x4.rank) ∈ dot_S256x1024_S1024x4_S256x4_1_0_0_1_n_n.rhsBatch by decide),
    dif_pos (show (1 : Fin S1024x4.rank) ∈ dot_S256x1024_S1024x4_S256x4_1_0_0_1_n_n.rhsNonContracting by decide)]
  rfl

/-- The product of a [256,1024] matrix and a [1024,4] matrix, accumulated into zero, at (r, d): the sum over the
    1024 contracted positions. -/
theorem matmul_zero_apply (L : FVec Ideal S256x1024 .bf16) (R : FVec Ideal S1024x4 .bf16) (r : Fin 256) (d : Fin 4) :
    matmul dot_S256x1024_S1024x4_S256x4_1_0_0_1_n_n none L R (constant (F := Ideal) S256x4 .f32 0x00000000#32) (ix2 r d)
      = ∑ j : Fin 1024, L (ix2 r j) * R (ix2 j d) := by
  simp only [matmul]
  rw [Ideal.matmul_constant_zero_apply, ← Equiv.sum_comp (contrEquiv1 dot_S256x1024_S1024x4_S256x4_1_0_0_1_n_n 1024 rfl rfl).symm]
  refine Finset.sum_congr rfl fun k _ => ?_
  have hk := contrEquiv1_symm_val dot_S256x1024_S1024x4_S256x4_1_0_0_1_n_n 1024 rfl rfl k
  have el : dot_S256x1024_S1024x4_S256x4_1_0_0_1_n_n.lhsIdx (ix2 r d) ((contrEquiv1 dot_S256x1024_S1024x4_S256x4_1_0_0_1_n_n 1024 rfl rfl).symm k) = ix2 r k :=
    funext fun a => Fin.ext (by
      match a with
      | ⟨0, _⟩ => exact lhs_row _ _
      | ⟨1, _⟩ => exact (lhs_contr _ _).trans hk)
  have er : dot_S256x1024_S1024x4_S256x4_1_0_0_1_n_n.rhsIdx (ix2 r d) ((contrEquiv1 dot_S256x1024_S1024x4_S256x4_1_0_0_1_n_n 1024 rfl rfl).symm k) = ix2 k d :=
    funext fun a => Fin.ext (by
      match a with
      | ⟨0, _⟩ => exact (rhs_contr _ _).trans hk
      | ⟨1, _⟩ => exact rhs_col _ _)
  rw [el, er]

/-! ## A column broadcast along the rows -/

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The payloads, bottom up -/

theorem pay2_apply (v0 : Vec Ideal S1x256x4 .f32) (r : Fin 256) (d : Fin 4) :
    k0_pay2 v0 (ix2 r d) = v0 (ix3 (0 : Fin 1) r d) :=
  shapeCast_1ab_ab_apply v0 _ r d

theorem pay3_apply (v2 : Vec Ideal S1x1024x4 .f32) (j : Fin 1024) (d : Fin 4) :
    k0_pay3 v2 (ix2 j d) = v2 (ix3 (0 : Fin 1) j d) :=
  shapeCast_1ab_ab_apply v2 _ j d

theorem pay4_apply (v4 : Vec Ideal S1x256x1 .f32) (r : Fin 256) (c : Fin 1) :
    k0_pay4 v4 (ix2 r c) = v4 (ix3 (0 : Fin 1) r c) :=
  shapeCast_1ab_ab_apply v4 _ r c

/-- The scaled lateral weight of the tile. -/
theorem pay5_apply (v6 : Vec Ideal S1x256x1024 .f32) (v8 : Vec Ideal S1x1024x256 .f32) (r : Fin 256) (j : Fin 1024) :
    k0_pay5 v6 v8 (ix2 r j) = blockLat v6 v8 r j := by
  unfold k0_pay5 blockLat
  show max (Ideal.ofBits .f32 0x3F000000#32 *
        (shapeCast S256x1024 v6 shapeCasts_S1x256x1024_S256x1024 (ix2 r j)
          + transpose S256x1024 [1, 0] (shapeCast S1024x256 v8 shapeCasts_S1x1024x256_S1024x256)
              transposes_S1024x256_p1_0_S256x1024 (ix2 r j)))
      (Ideal.ofBits .f32 0x00000000#32) * Ideal.ofBits .f32 0x3A800000#32 = _
  rw [shapeCast_1ab_ab_apply, transpose_ix2_apply, shapeCast_1ab_ab_apply]

theorem pay6_apply (v6 : Vec Ideal S1x256x1024 .f32) (v8 : Vec Ideal S1x1024x256 .f32) (v18 : Vec Ideal S256x1024 .f32)
    (r : Fin 256) (j : Fin 1024) :
    k0_pay6 v6 v8 v18 (ix2 r j) = blockLat v6 v8 r j * v18 (ix2 r j) := by
  unfold k0_pay6
  show k0_pay5 v6 v8 (ix2 r j) * shapeCast S256x1024 v18 shapeCasts_S256x1024_S256x1024 (ix2 r j) = _
  rw [pay5_apply, shapeCast_self]

theorem pay7_apply (v6 : Vec Ideal S1x256x1024 .f32) (v8 : Vec Ideal S1x1024x256 .f32) (v20 : Vec Ideal S256x1024 .f32)
    (r : Fin 256) (j : Fin 1024) :
    k0_pay7 v6 v8 v20 (ix2 r j) = blockLat v6 v8 r j * v20 (ix2 r j) := by
  unfold k0_pay7
  show k0_pay5 v6 v8 (ix2 r j) * shapeCast S256x1024 v20 shapeCasts_S256x1024_S256x1024 (ix2 r j) = _
  rw [pay5_apply, shapeCast_self]

theorem pay8_apply (v2 : Vec Ideal S1x1024x4 .f32) (j : Fin 1024) (d : Fin 4) :
    k0_pay8 v2 (ix2 j d) = Ideal.sin (v2 (ix3 (0 : Fin 1) j d)) := by
  unfold k0_pay8
  show Ideal.sin (k0_pay3 v2 (ix2 j d)) = _
  rw [pay3_apply]

theorem pay9_apply (v2 : Vec Ideal S1x1024x4 .f32) (j : Fin 1024) (d : Fin 4) :
    k0_pay9 v2 (ix2 j d) = Ideal.cos (v2 (ix3 (0 : Fin 1) j d)) := by
  unfold k0_pay9
  show Ideal.cos (k0_pay3 v2 (ix2 j d)) = _
  rw [pay3_apply]

theorem pay10_apply (v2 : Vec Ideal S1x1024x4 .f32) (v6 : Vec Ideal S1x256x1024 .f32) (v8 : Vec Ideal S1x1024x256 .f32)
    (v18 : Vec Ideal S256x1024 .f32) (r : Fin 256) (d : Fin 4) :
    k0_pay10 v2 v6 v8 v18 (ix2 r d)
      = ∑ j : Fin 1024, (blockLat v6 v8 r j * v18 (ix2 r j)) * Ideal.sin (v2 (ix3 (0 : Fin 1) j d)) := by
  unfold k0_pay10
  show matmul dot_S256x1024_S1024x4_S256x4_1_0_0_1_n_n none (k0_pay6 v6 v8 v18) (k0_pay8 v2) (constant (F := Ideal) S256x4 .f32 0x00000000#32) (ix2 r d) = _
  rw [matmul_zero_apply]
  exact Finset.sum_congr rfl fun j _ => by rw [pay6_apply, pay8_apply]

theorem pay11_apply (v2 : Vec Ideal S1x1024x4 .f32) (v6 : Vec Ideal S1x256x1024 .f32) (v8 : Vec Ideal S1x1024x256 .f32)
    (v18 : Vec Ideal S256x1024 .f32) (r : Fin 256) (d : Fin 4) :
    k0_pay11 v2 v6 v8 v18 (ix2 r d)
      = ∑ j : Fin 1024, (blockLat v6 v8 r j * v18 (ix2 r j)) * Ideal.cos (v2 (ix3 (0 : Fin 1) j d)) := by
  unfold k0_pay11
  show matmul dot_S256x1024_S1024x4_S256x4_1_0_0_1_n_n none (k0_pay6 v6 v8 v18) (k0_pay9 v2) (constant (F := Ideal) S256x4 .f32 0x00000000#32) (ix2 r d) = _
  rw [matmul_zero_apply]
  exact Finset.sum_congr rfl fun j _ => by rw [pay6_apply, pay9_apply]

theorem pay12_apply (v2 : Vec Ideal S1x1024x4 .f32) (v6 : Vec Ideal S1x256x1024 .f32) (v8 : Vec Ideal S1x1024x256 .f32)
    (v20 : Vec Ideal S256x1024 .f32) (r : Fin 256) (d : Fin 4) :
    k0_pay12 v2 v6 v8 v20 (ix2 r d)
      = ∑ j : Fin 1024, (blockLat v6 v8 r j * v20 (ix2 r j)) * Ideal.sin (v2 (ix3 (0 : Fin 1) j d)) := by
  unfold k0_pay12
  show matmul dot_S256x1024_S1024x4_S256x4_1_0_0_1_n_n none (k0_pay7 v6 v8 v20) (k0_pay8 v2) (constant (F := Ideal) S256x4 .f32 0x00000000#32) (ix2 r d) = _
  rw [matmul_zero_apply]
  exact Finset.sum_congr rfl fun j _ => by rw [pay7_apply, pay8_apply]

/-- The store's payload at (u, r, d), over its nine operands as variables. -/
theorem pay1_apply (v1 : FVec Ideal S256x4 .f32) (v5 : FVec Ideal S256x1 .f32) (v25 : FVec Ideal S256x1024 .bf16)
    (v29 : FVec Ideal S1024x4 .bf16) (v30 v31 v32 : FVec Ideal S256x4 .f32) (v41 v42 : Vec Ideal S256x4 .f32)
    (u : Fin 1) (r : Fin 256) (d : Fin 4) :
    k0_pay1 v1 v5 v25 v29 v30 v31 v32 v41 v42 (ix3 u r d)
      = v1 (ix2 r d) + cOne *
          ((v41 (ix2 r d) +
              (Ideal.cos (v1 (ix2 r d)) * (v30 (ix2 r d) - ∑ j : Fin 1024, v25 (ix2 r j) * v29 (ix2 j d))
                - Ideal.sin (v1 (ix2 r d)) * (v32 (ix2 r d) + v31 (ix2 r d))))
            + v42 (ix2 r d) * (v5 (ix2 r (0 : Fin 1)) - v1 (ix2 r d))) := by
  unfold k0_pay1
  rw [shapeCast_ab_1ab_apply]
  show v1 (ix2 r d) + Ideal.ofBits .f32 0x3F800000#32 *
      ((v41 (ix2 r d) +
          (Ideal.cos (v1 (ix2 r d)) *
              (v30 (ix2 r d) - matmul dot_S256x1024_S1024x4_S256x4_1_0_0_1_n_n none v25 v29 (constant (F := Ideal) S256x4 .f32 0x00000000#32) (ix2 r d))
            - Ideal.sin (v1 (ix2 r d)) * (v32 (ix2 r d) + v31 (ix2 r d))))
        + v42 (ix2 r d) * (broadcastTo S256x4 v5 broadcasts_S256x1_S256x4 (ix2 r d) - v1 (ix2 r d))) = _
  rw [matmul_zero_apply, broadcastTo_a1_ab_apply]

/-! ## The output block -/

/-- The output's staging buffer after the body, entry by entry: the block formula of the nine input blocks. -/
theorem outBlock_apply (x0 : Vec Ideal S1x256x4 .f32) (x1 : Vec Ideal S1x1024x4 .f32) (x2 : Vec Ideal S1x256x1 .f32)
    (x3 : Vec Ideal S1x256x1024 .f32) (x4 : Vec Ideal S1x1024x256 .f32) (x5 x6 : Vec Ideal S256x1024 .f32)
    (x7 x8 : Vec Ideal S256x4 .f32) (u : Fin 1) (r : Fin 256) (d : Fin 4) :
    outBlock (F := Ideal) x0 x1 x2 x3 x4 x5 x6 x7 x8 (ix3 u r d) = Kuramoto.blockForm x0 x1 x2 x3 x4 x5 x6 x7 x8 r d := by
  unfold outBlock
  rw [View.canon_unit_zero zero3]
  simp only [View.ld_unit_zero (S := S1x256x4) zero3, View.ld_unit_zero (S := S1x1024x4) zero3,
    View.ld_unit_zero (S := S1x256x1) zero3, View.ld_unit_zero (S := S1x256x1024) zero3,
    View.ld_unit_zero (S := S1x1024x256) zero3, View.ld_unit_zero (S := S256x1024) zero2,
    View.ld_unit_zero (S := S256x4) zero2]
  rw [pay1_apply, pay2_apply, pay4_apply, pay10_apply, pay11_apply, pay12_apply]
  unfold Kuramoto.blockForm
  simp only [pay7_apply, pay9_apply]

end Cert.KernelIdeal.Hand

end
-- ==== Proof.KernelIdealValue.lean ====
/-
  The tiled phase-coupling kernel's result array, entry by entry.

  Grid point `t` = (tile, batch) writes back the 256 × 4 block of batch `b` at rows 256·tile … 256·tile + 255. The
  nine input blocks it reads are: θ at the same rows, all of θ for the batch, γ (as a column), A's rows and A's columns
  at those row numbers, cos α, sin α, ω and κ at those rows. So each entry of the block is `Kuramoto.kernelForm` of the
  argument arrays at its array position; the 32 blocks tile the array, and the array ends at that formula everywhere.
-/
import proofs.«105893_j69965017252365_2_alg».proof.Proof.KernelIdealFrame
import proofs.«105893_j69965017252365_2_alg».proof.Proof.KernelIdealPayload
import Idealize.ShloMosaic.Lib.Pipeline.Value
import Idealize.ShloMosaic.Lib.ValueLayout
import Idealize.ShloMosaic.Lib.StableHlo.Run

set_option maxRecDepth 16384

noncomputable section

namespace Cert.KernelIdeal.Hand

open Cert.KernelIdeal Cert.KernelIdeal.Gen Kuramoto
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The three arrays the host writes before the region -/

/-- γ as a column: entry (b, i, 0) is γ[b, i]. -/
theorem V_gammaCol (c : Dev nD) : (V m c main_v0 : S8x1024x1.Idx → EReal)
    = broadcastInDim S8x1024x1 ![0, 1] bcast_S8x1024_S8x1024x1_0_1 (m ((c : Thread nD τ).loc main_arg1)) := by
  dsimp only [V, hostOps0]; after_results

/-- The cosine of the phase lag, entry by entry. -/
theorem V_cosLag (c : Dev nD) : (V m c main_v1 : S1024x1024.Idx → EReal)
    = (Host.cos (m ((c : Thread nD τ).loc main_arg5) : FVec Ideal S1024x1024 .f32) : FVec Ideal S1024x1024 .f32) := by
  dsimp only [V, hostOps0]; after_results

/-- The sine of the phase lag, entry by entry. -/
theorem V_sinLag (c : Dev nD) : (V m c main_v2 : S1024x1024.Idx → EReal)
    = (Host.sin (m ((c : Thread nD τ).loc main_arg5) : FVec Ideal S1024x1024 .f32) : FVec Ideal S1024x1024 .f32) := by
  dsimp only [V, hostOps0]; after_results

theorem gammaCol_apply (g : S8x1024.Idx → EReal) (b : Fin 8) (i : Fin 1024) (z : Fin 1) :
    broadcastInDim S8x1024x1 ![0, 1] bcast_S8x1024_S8x1024x1_0_1 g (ix3 b i z) = g (ix2 b i) :=
  broadcastInDim_apply _ _ g (ix3 b i z) (ix2 b i) fun a => by
    match a with
    | ⟨0, _⟩ => rfl
    | ⟨1, _⟩ => rfl

/-! ## The index maps, decided over the 32 grid points -/

/-- Every input window's block index in terms of the output window's (batch `B`, tile `I`). -/
theorem idx_facts : ∀ t : Fin cfg0.N, win0_0.index t (0 : Fin 3) = win0_9.index t (0 : Fin 3)
    ∧ win0_0.index t (1 : Fin 3) = win0_9.index t (1 : Fin 3)
    ∧ win0_0.index t (2 : Fin 3) = 0
    ∧ win0_1.index t (0 : Fin 3) = win0_9.index t (0 : Fin 3)
    ∧ win0_1.index t (1 : Fin 3) = 0
    ∧ win0_1.index t (2 : Fin 3) = 0
    ∧ win0_2.index t (0 : Fin 3) = win0_9.index t (0 : Fin 3)
    ∧ win0_2.index t (1 : Fin 3) = win0_9.index t (1 : Fin 3)
    ∧ win0_2.index t (2 : Fin 3) = 0
    ∧ win0_3.index t (0 : Fin 3) = win0_9.index t (0 : Fin 3)
    ∧ win0_3.index t (1 : Fin 3) = win0_9.index t (1 : Fin 3)
    ∧ win0_3.index t (2 : Fin 3) = 0
    ∧ win0_4.index t (0 : Fin 3) = win0_9.index t (0 : Fin 3)
    ∧ win0_4.index t (1 : Fin 3) = 0
    ∧ win0_4.index t (2 : Fin 3) = win0_9.index t (1 : Fin 3)
    ∧ win0_5.index t (0 : Fin 2) = win0_9.index t (1 : Fin 3)
    ∧ win0_5.index t (1 : Fin 2) = 0
    ∧ win0_6.index t (0 : Fin 2) = win0_9.index t (1 : Fin 3)
    ∧ win0_6.index t (1 : Fin 2) = 0
    ∧ win0_7.index t (0 : Fin 2) = win0_9.index t (1 : Fin 3)
    ∧ win0_7.index t (1 : Fin 2) = 0
    ∧ win0_8.index t (0 : Fin 2) = win0_9.index t (1 : Fin 3)
    ∧ win0_8.index t (1 : Fin 2) = 0
    ∧ win0_9.index t (2 : Fin 3) = 0
    ∧ win0_9.index t (0 : Fin 3) ≤ 7
    ∧ win0_9.index t (1 : Fin 3) ≤ 3 :=
  (by decide +kernel : ∀ t : Fin grid0.N, _)

/-- Every (batch, tile) pair is some grid point's. -/
theorem idx_onto : ∀ (q0 : Fin 8) (q1 : Fin 4), ∃ t : Fin cfg0.N, win0_9.index t = ![q0.val, q1.val, 0] :=
  (by decide +kernel : ∀ (q0 : Fin 8) (q1 : Fin 4), ∃ t : Fin grid0.N, win0_9.index t = ![q0.val, q1.val, 0])

/-! ## The result array -/

/-- The result: `kernelForm` of the six argument arrays at every index. -/
def G (c : Dev nD) : S8x1024x4.Idx → EReal := fun idx =>
  kernelForm (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (idx 0) (idx 1) (idx 2)

/-- What point `t` writes back is block `t` of `G`. -/
theorem flushed9_eq (c : Dev nD) (t : Fin cfg0.N) :
    (dats m 0 c).flushed 9 t = ((cfg0.win 9).blk t).view.read (Elt Ideal) (G m c) := by
  show (cfg0.win 9).cut (grid0.coords t) ((dats m 0 c).after 9 t) = _
  rw [after9]
  obtain ⟨e00, e01, e02, e10, e11, e12, e20, e21, e22, e30, e31, e32, e40, e41, e42, e50, e51, e60, e61, e70, e71, e80, e81, e92, hB, hI⟩ := idx_facts t
  funext y
  obtain ⟨u, r, d, rfl⟩ : ∃ (u : Fin 1) (r : Fin 256) (d : Fin 4), y = ix3 u r d := ⟨y 0, y 1, y 2, eq_ix3 y⟩
  have hr : r.val < 256 := r.isLt
  have hd : d.val < 4 := d.isLt
  have hu : u.val = 0 := by omega
  show outBlock (iblk m c 0 t) (iblk m c 1 t) (iblk m c 2 t) (iblk m c 3 t) (iblk m c 4 t) (iblk m c 5 t) (iblk m c 6 t) (iblk m c 7 t) (iblk m c 8 t) (ix3 u r d) = G m c (((cfg0.win 9).blk t).view.emb (ix3 u r d))
  refine (outBlock_apply _ _ _ _ _ _ _ _ _ u r d).trans ?_
  have hemb : ((cfg0.win 9).blk t).view.emb (ix3 u r d)
      = ix3 (⟨win0_9.index t (0 : Fin 3), by omega⟩ : Fin 8) (⟨win0_9.index t (1 : Fin 3) * 256 + r.val, by omega⟩ : Fin 1024) d := by
    funext a; apply Fin.ext
    match a with
    | ⟨0, _⟩ => show win0_9.index t (0 : Fin 3) * 1 + 1 * u.val = win0_9.index t (0 : Fin 3); omega
    | ⟨1, _⟩ => show win0_9.index t (1 : Fin 3) * 256 + 1 * r.val = win0_9.index t (1 : Fin 3) * 256 + r.val; omega
    | ⟨2, _⟩ => show win0_9.index t (2 : Fin 3) * 4 + 1 * d.val = d.val; omega
  rw [hemb]
  show _ = kernelForm _ _ _ _ _ _ (⟨win0_9.index t (0 : Fin 3), by omega⟩ : Fin 8) (⟨win0_9.index t (1 : Fin 3) * 256 + r.val, by omega⟩ : Fin 1024) d
  refine blockForm_eq_kernelForm _ _ _ _ _ _ _ _ _ _ _ _ _ _ _ _ _ r d ?_ ?_ ?_ ?_ ?_ ?_ ?_ ?_ ?_
  · -- the θ tile
    show V m c main_arg0 (((cfg0.win 0).blk t).view.emb (ix3 0 r d)) = _
    rw [V_main_arg0]
    refine congrArg _ (funext fun a => Fin.ext ?_)
    match a with
    | ⟨0, _⟩ => show win0_0.index t (0 : Fin 3) * 1 + 1 * 0 = win0_9.index t (0 : Fin 3); omega
    | ⟨1, _⟩ => show win0_0.index t (1 : Fin 3) * 256 + 1 * r.val = win0_9.index t (1 : Fin 3) * 256 + r.val; omega
    | ⟨2, _⟩ => show win0_0.index t (2 : Fin 3) * 4 + 1 * d.val = d.val; omega
  · -- the whole θ slab
    intro j
    have hj : j.val < 1024 := j.isLt
    show V m c main_arg0 (((cfg0.win 1).blk t).view.emb (ix3 0 j d)) = _
    rw [V_main_arg0]
    refine congrArg _ (funext fun a => Fin.ext ?_)
    match a with
    | ⟨0, _⟩ => show win0_1.index t (0 : Fin 3) * 1 + 1 * 0 = win0_9.index t (0 : Fin 3); omega
    | ⟨1, _⟩ => show win0_1.index t (1 : Fin 3) * 1024 + 1 * j.val = j.val; omega
    | ⟨2, _⟩ => show win0_1.index t (2 : Fin 3) * 4 + 1 * d.val = d.val; omega
  · -- γ's column tile
    show V m c main_v0 (((cfg0.win 2).blk t).view.emb (ix3 0 r 0)) = _
    rw [V_gammaCol]
    have e : ((cfg0.win 2).blk t).view.emb (ix3 0 r 0)
        = ix3 (⟨win0_9.index t (0 : Fin 3), by omega⟩ : Fin 8) (⟨win0_9.index t (1 : Fin 3) * 256 + r.val, by omega⟩ : Fin 1024) (0 : Fin 1) := by
      funext a; apply Fin.ext
      match a with
      | ⟨0, _⟩ => show win0_2.index t (0 : Fin 3) * 1 + 1 * 0 = win0_9.index t (0 : Fin 3); omega
      | ⟨1, _⟩ => show win0_2.index t (1 : Fin 3) * 256 + 1 * r.val = win0_9.index t (1 : Fin 3) * 256 + r.val; omega
      | ⟨2, _⟩ => show win0_2.index t (2 : Fin 3) * 1 + 1 * 0 = 0; omega
    rw [e]
    exact gammaCol_apply _ _ _ _
  · -- A's row tile
    intro j
    have hj : j.val < 1024 := j.isLt
    show V m c main_arg2 (((cfg0.win 3).blk t).view.emb (ix3 0 r j)) = _
    rw [V_main_arg2]
    refine congrArg _ (funext fun a => Fin.ext ?_)
    match a with
    | ⟨0, _⟩ => show win0_3.index t (0 : Fin 3) * 1 + 1 * 0 = win0_9.index t (0 : Fin 3); omega
    | ⟨1, _⟩ => show win0_3.index t (1 : Fin 3) * 256 + 1 * r.val = win0_9.index t (1 : Fin 3) * 256 + r.val; omega
    | ⟨2, _⟩ => show win0_3.index t (2 : Fin 3) * 1024 + 1 * j.val = j.val; omega
  · -- A's column tile
    intro j
    have hj : j.val < 1024 := j.isLt
    show V m c main_arg2 (((cfg0.win 4).blk t).view.emb (ix3 0 j r)) = _
    rw [V_main_arg2]
    refine congrArg _ (funext fun a => Fin.ext ?_)
    match a with
    | ⟨0, _⟩ => show win0_4.index t (0 : Fin 3) * 1 + 1 * 0 = win0_9.index t (0 : Fin 3); omega
    | ⟨1, _⟩ => show win0_4.index t (1 : Fin 3) * 1024 + 1 * j.val = j.val; omega
    | ⟨2, _⟩ => show win0_4.index t (2 : Fin 3) * 256 + 1 * r.val = win0_9.index t (1 : Fin 3) * 256 + r.val; omega
  · -- cos α's row tile
    intro j
    have hj : j.val < 1024 := j.isLt
    show V m c main_v1 (((cfg0.win 5).blk t).view.emb (ix2 r j)) = _
    rw [V_cosLag]
    show Ideal.cos (m ((c : Thread nD τ).loc main_arg5) (((cfg0.win 5).blk t).view.emb (ix2 r j))) = _
    refine congrArg (fun z => Ideal.cos (m ((c : Thread nD τ).loc main_arg5) z)) (funext fun a => Fin.ext ?_)
    match a with
    | ⟨0, _⟩ => show win0_5.index t (0 : Fin 2) * 256 + 1 * r.val = win0_9.index t (1 : Fin 3) * 256 + r.val; omega
    | ⟨1, _⟩ => show win0_5.index t (1 : Fin 2) * 1024 + 1 * j.val = j.val; omega
  · -- sin α's row tile
    intro j
    have hj : j.val < 1024 := j.isLt
    show V m c main_v2 (((cfg0.win 6).blk t).view.emb (ix2 r j)) = _
    rw [V_sinLag]
    show Ideal.sin (m ((c : Thread nD τ).loc main_arg5) (((cfg0.win 6).blk t).view.emb (ix2 r j))) = _
    refine congrArg (fun z => Ideal.sin (m ((c : Thread nD τ).loc main_arg5) z)) (funext fun a => Fin.ext ?_)
    match a with
    | ⟨0, _⟩ => show win0_6.index t (0 : Fin 2) * 256 + 1 * r.val = win0_9.index t (1 : Fin 3) * 256 + r.val; omega
    | ⟨1, _⟩ => show win0_6.index t (1 : Fin 2) * 1024 + 1 * j.val = j.val; omega
  · -- ω's row tile
    show V m c main_arg3 (((cfg0.win 7).blk t).view.emb (ix2 r d)) = _
    rw [V_main_arg3]
    refine congrArg _ (funext fun a => Fin.ext ?_)
    match a with
    | ⟨0, _⟩ => show win0_7.index t (0 : Fin 2) * 256 + 1 * r.val = win0_9.index t (1 : Fin 3) * 256 + r.val; omega
    | ⟨1, _⟩ => show win0_7.index t (1 : Fin 2) * 4 + 1 * d.val = d.val; omega
  · -- κ's row tile
    show V m c main_arg4 (((cfg0.win 8).blk t).view.emb (ix2 r d)) = _
    rw [V_main_arg4]
    refine congrArg _ (funext fun a => Fin.ext ?_)
    match a with
    | ⟨0, _⟩ => show win0_8.index t (0 : Fin 2) * 256 + 1 * r.val = win0_9.index t (1 : Fin 3) * 256 + r.val; omega
    | ⟨1, _⟩ => show win0_8.index t (1 : Fin 2) * 4 + 1 * d.val = d.val; omega

/-- An index of the array is in point `t`'s block iff each coordinate is in the block's range on its axis. -/
theorem mem_blk9 (t : Fin cfg0.N) (i : S8x1024x4.Idx) :
    i ∈ ((cfg0.win 9).blk t).view.set ↔ ∀ a : Fin 3, win0_9.index t a * S1x256x4.size a ≤ (i a).val ∧ (i a).val < win0_9.index t a * S1x256x4.size a + S1x256x4.size a := by
  show i ∈ ((View.whole main_v3).slice (win0_9.rect t)).set ↔ _
  rw [View.set_slice_whole, Rect.mem_set_unit]
  exact Iff.rfl

/-- The 32 blocks cover the array: row `i` of batch `b` is in the block of (tile i / 256, batch b). -/
theorem cover9 (i : S8x1024x4.Idx) : ∃ t : Fin cfg0.N, (cfg0.win 9).flush t = true ∧ i ∈ ((cfg0.win 9).blk t).view.set := by
  have h0 : (i 0).val < 8 := (i 0).isLt
  have h1 : (i 1).val < 1024 := (i 1).isLt
  have h2 : (i 2).val < 4 := (i 2).isLt
  obtain ⟨t, ht⟩ := idx_onto ⟨(i 0).val, by omega⟩ ⟨(i 1).val / 256, by omega⟩
  have q0 : win0_9.index t (0 : Fin 3) = (i 0).val := congrFun ht 0
  have q1 : win0_9.index t (1 : Fin 3) = (i 1).val / 256 := congrFun ht 1
  have q2 : win0_9.index t (2 : Fin 3) = 0 := congrFun ht 2
  refine ⟨t, flush0_9 t, ?_⟩
  rw [mem_blk9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 256 ≤ (i 1).val ∧ (i 1).val < win0_9.index t (1 : Fin 3) * 256 + 256; omega
  | ⟨2, _⟩ => show win0_9.index t (2 : Fin 3) * 4 ≤ (i 2).val ∧ (i 2).val < win0_9.index t (2 : Fin 3) * 4 + 4; omega

/-- The result array after the run. -/
theorem final9 (c : Dev nD) : (dats m 0 c).arrAt 9 cfg0.N = G m c :=
  (dats m 0 c).arrAt_eq_of_cover 9 (G m c) (fun t _ => flushed9_eq m c t) cover9

/-- The run, read: the result array at `kernelForm` of the arguments, the arguments unchanged. -/
theorem run : θ_run defs (onTc (τ := τ) (main (F := Ideal))) ⟨m, fun _ => 0, ρ⟩ (fun r => ∀ c : Dev nD,
      r.2.mem ((c.tc : Thread nD τ).loc main_v3) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 9).trans (final9 m c),
     ((h c).1 0).trans (((dats m 0 c).arrAt_in 0 rfl _).trans ((A_eq m c 0).trans (V_main_arg0 m c))),
     ((h c).2 main_arg1 (Pipeline.mem_restRefs_of main_arg1 (by decide) (by decide))).trans (V_main_arg1 m c),
     ((h c).1 3).trans (((dats m 0 c).arrAt_in 3 rfl _).trans ((A_eq m c 3).trans (V_main_arg2 m c))),
     ((h c).1 7).trans (((dats m 0 c).arrAt_in 7 rfl _).trans ((A_eq m c 7).trans (V_main_arg3 m c))),
     ((h c).1 8).trans (((dats m 0 c).arrAt_in 8 rfl _).trans ((A_eq m c 8).trans (V_main_arg4 m c))),
     ((h c).2 main_arg5 (Pipeline.mem_restRefs_of main_arg5 (by decide) (by decide))).trans (V_main_arg5 m c)⟩) (run_main m ρ)

end Cert.KernelIdeal.Hand

end
-- ==== Proof.ReferenceForm.lean ====
/-
  The coupled-oscillator update as the reference program computes it, entry by entry, on the extended reals.

  For batch `b`, row `i` and component `d`, with x = θ[b,i,d] and the unscaled lateral weight
  r_j = max(h · (A[b,i,j] + A[b,j,i]), z), the reference forms the single sum over the other rows j of
  r_j · sin((θ[b,j,d] − x) − α[i,j]), started from the zero literal, scales it by s, and returns
    x + u · ((ω[i,d] + s · (z + Σ_j r_j · sin((θ[b,j,d] − x) − α[i,j]))) + κ[i,d] · (γ[b,i] − x)).
  The constants `h`, `z`, `s`, `u` are the program's four float literals, kept as their bit patterns.
-/
import proofs.«105893_j69965017252365_2_alg».proof.Proof.KernelForm

noncomputable section

namespace Kuramoto

open Idealize.ShloMosaic Idealize.ShloMosaic.ValueIdx
open scoped BigOperators

variable (θ : I8x1024x4 → EReal) (γ : I8x1024 → EReal) (A : I8x1024x1024 → EReal)
  (ω κ : I1024x4 → EReal) (α : I1024x1024 → EReal)

/-- The reference's result at `(b, i, d)`: one weighted sum of sines of the lagged phase differences. -/
def referenceForm (b : Fin 8) (i : Fin 1024) (d : Fin 4) : EReal :=
  θ (ix3 b i d) + cOne *
    ((ω (ix2 i d) +
        cScale * (cZero + ∑ j : Fin 1024,
          max (cHalf * (A (ix3 b i j) + A (ix3 b j i))) cZero
            * Ideal.sin ((θ (ix3 b j d) - θ (ix3 b i d)) - α (ix2 i j))))
      + κ (ix2 i d) * (γ (ix2 b i) - θ (ix3 b i d)))

end Kuramoto

end
-- ==== Proof.RefSide.lean ====
/-
  The reference program's run, read entry by entry: its result array is `Kuramoto.referenceForm` of its six argument
  arrays, and the arguments end unchanged.

  The run's composed term is read one operation at a time: the outer sum, products and differences read
  pointwise; each broadcast reads its operand at the index with the broadcast axes dropped; the transpose swaps the
  last two coordinates; the sum over the third axis of the rank-four product is the sum over the other row j. The
  index equations below say where each argument array is finally read: θ at (b,j,d) and (b,i,d), A at (b,i,j) and
  (b,j,i), α at (i,j), ω and κ at (i,d), γ at (b,i).
-/
import proofs.«105893_j69965017252365_2_alg».proof.Defs
import proofs.«105893_j69965017252365_2_alg».proof.Proof.Gen.ReferenceIdeal.Read
import proofs.«105893_j69965017252365_2_alg».proof.Proof.Gen.Pre_finite_inputs
import proofs.«105893_j69965017252365_2_alg».proof.Proof.ReferenceForm

noncomputable section

namespace Kuramoto.Reference

open Cert.ReferenceIdeal Cert.ReferenceIdeal.Gen Cert.ReferenceIdeal.Read Idealize.ShloMosaic
  Idealize.ShloMosaic.ValueIdx Idealize.ShloMosaic.TcCoe Idealize.SL.Sem Idealize.ShloMosaic.StableHlo
open scoped BigOperators

/-- The last stage of the reference, at the exact instance, is `referenceForm` of the six argument arrays. -/
theorem val_eq_referenceForm (x0 : (⟨S8x1024x4, .f32⟩ : BufTy).Contents (Elt Ideal))
    (x1 : (⟨S8x1024, .f32⟩ : BufTy).Contents (Elt Ideal)) (x2 : (⟨S8x1024x1024, .f32⟩ : BufTy).Contents (Elt Ideal))
    (x3 x4 : (⟨S1024x4, .f32⟩ : BufTy).Contents (Elt Ideal)) (x5 : (⟨S1024x1024, .f32⟩ : BufTy).Contents (Elt Ideal)) :
    val_main_v32 (F := Ideal) x0 x1 x2 x3 x4 x5
      = fun idx => referenceForm x0 x1 x2 x3 x4 x5 (idx 0) (idx 1) (idx 2) := by
  funext idx
  obtain ⟨b, i, d, rfl⟩ : ∃ (b : Fin 8) (i : Fin 1024) (d : Fin 4), idx = ix3 b i d :=
    ⟨idx 0, idx 1, idx 2, eq_ix3 idx⟩
  show _ = referenceForm x0 x1 x2 x3 x4 x5 b i d
  have eω : idx_main_v20 (idx_main_v21 (ix3 b i d)) = ix2 i d :=
    funext fun a => Fin.ext (by match a with | ⟨0, _⟩ => rfl | ⟨1, _⟩ => rfl)
  have eκ : idx_main_v23 (idx_main_v27 (ix3 b i d)) = ix2 i d :=
    funext fun a => Fin.ext (by match a with | ⟨0, _⟩ => rfl | ⟨1, _⟩ => rfl)
  have eγ : idx_main_v24 (idx_main_v25 (ix3 b i d)) = ix2 b i :=
    funext fun a => Fin.ext (by match a with | ⟨0, _⟩ => rfl | ⟨1, _⟩ => rfl)
  have eA : ∀ k : Fin 1024, idx_main_v13 (idx_main_v15 (idx_main_v17 (ix3 b i d) k)) = ix3 b i k := fun k =>
    funext fun a => Fin.ext (by match a with | ⟨0, _⟩ => rfl | ⟨1, _⟩ => rfl | ⟨2, _⟩ => rfl)
  have eAt : ∀ k : Fin 1024, idx_main_v0 (ix3 b i k) = ix3 b k i := fun k =>
    funext fun a => Fin.ext (by match a with | ⟨0, _⟩ => rfl | ⟨1, _⟩ => rfl | ⟨2, _⟩ => rfl)
  have eθj : ∀ k : Fin 1024, idx_main_v5 (idx_main_v7 (idx_main_v17 (ix3 b i d) k)) = ix3 b k d := fun k =>
    funext fun a => Fin.ext (by match a with | ⟨0, _⟩ => rfl | ⟨1, _⟩ => rfl | ⟨2, _⟩ => rfl)
  have eθi : ∀ k : Fin 1024, idx_main_v6 (idx_main_v8 (idx_main_v17 (ix3 b i d) k)) = ix3 b i d := fun k =>
    funext fun a => Fin.ext (by match a with | ⟨0, _⟩ => rfl | ⟨1, _⟩ => rfl | ⟨2, _⟩ => rfl)
  have eα : ∀ k : Fin 1024, idx_main_v10 (idx_main_v11 (idx_main_v17 (ix3 b i d) k)) = ix2 i k := fun k =>
    funext fun a => Fin.ext (by match a with | ⟨0, _⟩ => rfl | ⟨1, _⟩ => rfl)
  rw [val_main_v32_apply, val_main_v31_apply, val_main_v30_apply, val_main_cst_2_apply, val_main_v29_apply,
    val_main_v22_apply, val_main_v21_apply, val_main_v20_apply, val_main_v19_apply, val_main_v18_apply,
    val_main_cst_1_apply, val_main_v17_apply, val_main_cst_0_apply, val_main_v28_apply, val_main_v27_apply,
    val_main_v23_apply, val_main_v26_apply, val_main_v25_apply, val_main_v24_apply, eω, eκ, eγ]
  have hterm : ∀ k : Fin 1024, val_main_v16 (F := Ideal) x0 x2 x5 (idx_main_v17 (ix3 b i d) k)
      = max (cHalf * (x2 (ix3 b i k) + x2 (ix3 b k i))) cZero
          * Ideal.sin ((x0 (ix3 b k d) - x0 (ix3 b i d)) - x5 (ix2 i k)) := by
    intro k
    rw [val_main_v16_apply, val_main_v15_apply, val_main_v13_apply, val_main_v4_apply, val_main_v3_apply,
      val_main_v2_apply, val_main_cst_apply, val_main_v1_apply, val_main_v0_apply, val_main_call0_v0_apply,
      val_main_call0_cst_apply, val_main_v14_apply, val_main_v12_apply, val_main_v9_apply, val_main_v7_apply,
      val_main_v5_apply, val_main_v8_apply, val_main_v6_apply, val_main_v11_apply, val_main_v10_apply,
      eA k, eAt k, eθj k, eθi k, eα k]
    rfl
  rw [Finset.sum_congr rfl (fun k _ => hterm k)]
  rfl

/-- Every weakly fair execution of the reference terminates with its result array at `referenceForm` of the argument
    arrays, entry by entry, and the six argument arrays unchanged. -/
theorem reference_run (m' : (ℓ : Loc nD τ sig) → Buf (Elt Ideal) ℓ) (ρ' : Dev nD → PrngReg) :
    θ_run (Cert.ReferenceIdeal.defs (F := Ideal)) (onTc (τ := τ) (Cert.ReferenceIdeal.main (F := Ideal)))
      ⟨m', fun _ => 0, ρ'⟩ (fun r => ∀ c : Dev nD,
        r.2.mem ((c.tc : Thread nD τ).loc main_v32)
          = (fun idx => referenceForm (m' ((c.tc : Thread nD τ).loc main_arg0)) (m' ((c.tc : Thread nD τ).loc main_arg1))
              (m' ((c.tc : Thread nD τ).loc main_arg2)) (m' ((c.tc : Thread nD τ).loc main_arg3))
              (m' ((c.tc : Thread nD τ).loc main_arg4)) (m' ((c.tc : Thread nD τ).loc main_arg5)) (idx 0) (idx 1) (idx 2))
        ∧ r.2.mem ((c.tc : Thread nD τ).loc main_arg0) = m' ((c.tc : Thread nD τ).loc main_arg0)
        ∧ r.2.mem ((c.tc : Thread nD τ).loc main_arg1) = m' ((c.tc : Thread nD τ).loc main_arg1)
        ∧ r.2.mem ((c.tc : Thread nD τ).loc main_arg2) = m' ((c.tc : Thread nD τ).loc main_arg2)
        ∧ r.2.mem ((c.tc : Thread nD τ).loc main_arg3) = m' ((c.tc : Thread nD τ).loc main_arg3)
        ∧ r.2.mem ((c.tc : Thread nD τ).loc main_arg4) = m' ((c.tc : Thread nD τ).loc main_arg4)
        ∧ r.2.mem ((c.tc : Thread nD τ).loc main_arg5) = m' ((c.tc : Thread nD τ).loc main_arg5)) :=
  (θ_run Cert.ReferenceIdeal.defs _ _).mono
    (fun _ h c => ⟨(h c).1.trans ((val_main_v32_eq _ _ _ _ _ _).trans (val_eq_referenceForm _ _ _ _ _ _)), (h c).2⟩)
    (Cert.ReferenceIdeal.Value.run (F := Ideal) m' ρ')

/-- The reference's frame: its run with the result dropped. -/
theorem frame_ReferenceIdeal : Cert.frame_ReferenceIdeal := fun m ρ _ =>
  (θ_run Cert.ReferenceIdeal.defs _ _).mono (fun _ h c => (h c).2) (Cert.ReferenceIdeal.Value.run (F := Ideal) m ρ)

end Kuramoto.Reference

end
-- ==== Proof.Law.lean ====
/-
  The kernel's arrangement and the reference's arrangement of the coupled-oscillator update agree on finite inputs.

  With real entries, x = θ[b,i,d], r_j = max(h · (A[b,i,j] + A[b,j,i]), 0) and the lag α_j = α[i,j], the
  angle-difference identities give, term by term,
    s · (r_j · sin((θ_j − x) − α_j))
      = cos x · ((r_j·s·cos α_j) · sin θ_j − (r_j·s·sin α_j) · cos θ_j)
        − sin x · ((r_j·s·sin α_j) · sin θ_j + (r_j·s·cos α_j) · cos θ_j),
  and summing over j turns the reference's single sum into the kernel's four. This holds for every real value of the
  literals h and s; it needs the zero literal to be 0. The outer literal u multiplies the same quantity on both sides.
-/
import proofs.«105893_j69965017252365_2_alg».proof.Proof.ReferenceForm

noncomputable section

namespace Kuramoto

open Idealize.ShloMosaic Idealize.ShloMosaic.ValueIdx
open scoped BigOperators

/-- The literal one half denotes a real number. -/
theorem cHalf_real : ∃ r : ℝ, cHalf = (r : EReal) :=
  ⟨1 / 2, by simp [Ideal.ofBits, Ideal.ieee, -EReal.coe_mul]; norm_num⟩

/-- The literal 2⁻¹⁰ denotes a real number. -/
theorem cScale_real : ∃ r : ℝ, cScale = (r : EReal) :=
  ⟨1 / 1024, by simp [Ideal.ofBits, Ideal.ieee, -EReal.coe_mul]; norm_num⟩

/-- The zero literal denotes the real zero. -/
theorem cZero_eq : cZero = ((0 : ℝ) : EReal) := by
  simp [Ideal.ofBits, Ideal.ieee]

/-- The larger of two reals, read in the extended reals, is the larger of the readings. -/
theorem coe_max (a b : ℝ) : max (a : EReal) (b : EReal) = ((max a b : ℝ) : EReal) :=
  (EReal.coe_strictMono.monotone.map_max).symm

/-- A finite sum of reals, read in the extended reals, is the sum of the readings. -/
theorem coe_sum {ι : Type*} (s : Finset ι) (f : ι → ℝ) :
    ∑ j ∈ s, ((f j : ℝ) : EReal) = ((∑ j ∈ s, f j : ℝ) : EReal) := by
  classical
  induction s using Finset.induction_on with
  | empty => simp
  | insert a s ha ih => rw [Finset.sum_insert ha, Finset.sum_insert ha, ih, EReal.coe_add]

/-- The recombination over the reals: the single lagged-sine sum is the four sums recombined with the row's own
    sine and cosine. -/
theorem real_law {ι : Type*} [Fintype ι] (x s : ℝ) (r al th : ι → ℝ) :
    Real.cos x * ((∑ j, (r j * s * Real.cos (al j)) * Real.sin (th j))
          - (∑ j, (r j * s * Real.sin (al j)) * Real.cos (th j)))
        - Real.sin x * ((∑ j, (r j * s * Real.sin (al j)) * Real.sin (th j))
          + (∑ j, (r j * s * Real.cos (al j)) * Real.cos (th j)))
      = s * (0 + ∑ j, r j * Real.sin ((th j - x) - al j)) := by
  have key : ∀ j, s * (r j * Real.sin ((th j - x) - al j))
      = Real.cos x * ((r j * s * Real.cos (al j)) * Real.sin (th j) - (r j * s * Real.sin (al j)) * Real.cos (th j))
        - Real.sin x * ((r j * s * Real.sin (al j)) * Real.sin (th j) + (r j * s * Real.cos (al j)) * Real.cos (th j)) := by
    intro j
    rw [Real.sin_sub, Real.sin_sub, Real.cos_sub]
    ring
  rw [zero_add, Finset.mul_sum, Finset.sum_congr rfl (fun j _ => key j), Finset.sum_sub_distrib,
    ← Finset.mul_sum, ← Finset.mul_sum, Finset.sum_sub_distrib, Finset.sum_add_distrib]

/-- The same on the extended reals, at real entries and real literals. -/
theorem ereal_law {ι : Type*} [Fintype ι] (cH cZ cS : EReal) (h s : ℝ) (hH : cH = (h : EReal))
    (hZ : cZ = ((0 : ℝ) : EReal)) (hS : cS = (s : EReal)) (x : ℝ) (a1 a2 al th : ι → ℝ) :
    Ideal.cos (x : EReal) *
          ((∑ j, (max (cH * ((a1 j : EReal) + (a2 j : EReal))) cZ * cS * Ideal.cos (al j : EReal)) * Ideal.sin (th j : EReal))
            - (∑ j, (max (cH * ((a1 j : EReal) + (a2 j : EReal))) cZ * cS * Ideal.sin (al j : EReal)) * Ideal.cos (th j : EReal)))
        - Ideal.sin (x : EReal) *
          ((∑ j, (max (cH * ((a1 j : EReal) + (a2 j : EReal))) cZ * cS * Ideal.sin (al j : EReal)) * Ideal.sin (th j : EReal))
            + (∑ j, (max (cH * ((a1 j : EReal) + (a2 j : EReal))) cZ * cS * Ideal.cos (al j : EReal)) * Ideal.cos (th j : EReal)))
      = cS * (cZ + ∑ j, max (cH * ((a1 j : EReal) + (a2 j : EReal))) cZ
          * Ideal.sin (((th j : EReal) - (x : EReal)) - (al j : EReal))) := by
  subst hH hZ hS
  simp only [Ideal.sin_coe, Ideal.cos_coe, ← EReal.coe_add, ← EReal.coe_mul, ← EReal.coe_sub, coe_max, coe_sum]
  exact congrArg _ (real_law x s (fun j => max (h * (a1 j + a2 j)) 0) al th)

/-- On finite inputs the kernel's arrangement equals the reference's, entry by entry. -/
theorem kernelForm_eq_referenceForm (θ' : I8x1024x4 → ℝ) (γ' : I8x1024 → ℝ) (A' : I8x1024x1024 → ℝ)
    (ω' κ' : I1024x4 → ℝ) (α' : I1024x1024 → ℝ) (b : Fin 8) (i : Fin 1024) (d : Fin 4) :
    kernelForm (fun x => (θ' x : EReal)) (fun x => (γ' x : EReal)) (fun x => (A' x : EReal))
        (fun x => (ω' x : EReal)) (fun x => (κ' x : EReal)) (fun x => (α' x : EReal)) b i d
      = referenceForm (fun x => (θ' x : EReal)) (fun x => (γ' x : EReal)) (fun x => (A' x : EReal))
        (fun x => (ω' x : EReal)) (fun x => (κ' x : EReal)) (fun x => (α' x : EReal)) b i d := by
  obtain ⟨h, hh⟩ := cHalf_real
  obtain ⟨s, hs⟩ := cScale_real
  unfold kernelForm referenceForm
  exact congrArg
    (fun t : EReal => (θ' (ix3 b i d) : EReal) + cOne *
      (((ω' (ix2 i d) : EReal) + t) + (κ' (ix2 i d) : EReal) * ((γ' (ix2 b i) : EReal) - (θ' (ix3 b i d) : EReal))))
    (ereal_law cHalf cZero cScale h s hh cZero_eq hs (θ' (ix3 b i d)) (fun j : Fin 1024 => A' (ix3 b i j))
      (fun j : Fin 1024 => A' (ix3 b j i)) (fun j : Fin 1024 => α' (ix2 i j)) (fun j : Fin 1024 => θ' (ix3 b j d)))

end Kuramoto

end
-- ==== Proof.Finite.lean ====
/-
  From the printed precondition to real entries.

  The precondition folds, over each of the six argument arrays, the comparison |x| < +∞ by `and` from the constant
  true, and conjoins the six results. If the conjunction is true, each fold is true, so every entry of every array
  satisfies the comparison; an extended real whose absolute value is below +∞ is neither infinity, so it is a real.
-/
import proofs.«105893_j69965017252365_2_alg».proof.Proof.Gen.Pre_finite_inputs
import proofs.«105893_j69965017252365_2_alg».proof.Proof.KernelForm
import Idealize.ShloMosaic.Lib.ReduceAll

noncomputable section

namespace Kuramoto

open Idealize.ShloMosaic Idealize.ShloMosaic.ValueIdx Cert.Pre_finite_inputs

instance : Subsingleton S_.Idx := ⟨fun a b => funext fun d => d.elim0⟩

/-- An extended real whose absolute value compares below the pattern of +∞ is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- If the fold by `and` of the comparison |x| < +∞ over a whole array is true, the array has real entries. -/
theorem real_array {s : Shape} {axes : List (Fin s.rank)} (a : FVec Ideal s .f32) (hr : s.ReducesTo axes S_)
    (hb : S_.BroadcastsInDim s (![] : Fin 0 → Fin s.rank)) (hu : 0 < S_.numel)
    (h : Host.reduce IntOp.andi
        (cmpf .olt (Host.absf a) (broadcastInDim s ![] hb (constant (F := Ideal) S_ .f32 0x7F800000#32)))
        (constantI S_ 1 1#1) hr hu ix0 = 1#1) :
    ∃ a' : s.Idx → ℝ, a = fun x => (a' x : EReal) := by
  have hall : ∀ i : s.Idx, ∃ r : ℝ, a i = (r : EReal) := fun i =>
    real_of_abs_lt_top (a i) (Host.reduce_andi_all _ _ hr hu ix0 h i)
  choose a' ha' using hall
  exact ⟨a', funext ha'⟩

/-- Under the printed precondition, all six argument arrays have real entries. -/
theorem finite_of_fn (a0 : FVec Ideal S8x1024x4 .f32) (a1 : FVec Ideal S8x1024 .f32)
    (a2 : FVec Ideal S8x1024x1024 .f32) (a3 a4 : FVec Ideal S1024x4 .f32) (a5 : FVec Ideal S1024x1024 .f32) :
    Cert.Pre_finite_inputs.fn (F := Ideal) a0 a1 a2 a3 a4 a5 = (fun _ => 1#1) →
      (∃ θ' : I8x1024x4 → ℝ, a0 = fun x => (θ' x : EReal))
      ∧ (∃ γ' : I8x1024 → ℝ, a1 = fun x => (γ' x : EReal))
      ∧ (∃ A' : I8x1024x1024 → ℝ, a2 = fun x => (A' x : EReal))
      ∧ (∃ ω' : I1024x4 → ℝ, a3 = fun x => (ω' x : EReal))
      ∧ (∃ κ' : I1024x4 → ℝ, a4 = fun x => (κ' x : EReal))
      ∧ (∃ α' : I1024x1024 → ℝ, a5 = fun x => (α' x : EReal)) := by
  intro h
  have h0 := congrFun h ix0
  dsimp only [fn, fn_part1] at h0
  obtain ⟨h23, h27⟩ := IntOp.andi_eq_one.1 h0
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨real_array a0 _ _ _ h3, real_array a1 _ _ _ h7, real_array a2 _ _ _ h12, real_array a3 _ _ _ h17,
    real_array a4 _ _ _ h22, real_array a5 _ _ _ h27⟩

end Kuramoto

end
-- ==== Proof.Bridge.lean ====
/-
  Under the printed precondition the kernel's arrangement and the reference's arrangement are one array.

  The precondition gives real entries for all six argument arrays; on real entries the two arrangements agree entry
  by entry, by the angle-difference recombination.
-/
import proofs.«105893_j69965017252365_2_alg».proof.Proof.Law
import proofs.«105893_j69965017252365_2_alg».proof.Proof.Finite

noncomputable section

namespace Kuramoto

open Idealize.ShloMosaic Idealize.ShloMosaic.ValueIdx

/-- Entry by entry, for argument arrays satisfying the printed precondition. -/
theorem kernelForm_eq_referenceForm_of_fn (a0 : I8x1024x4 → EReal) (a1 : I8x1024 → EReal) (a2 : I8x1024x1024 → EReal)
    (a3 a4 : I1024x4 → EReal) (a5 : I1024x1024 → EReal)
    (h : Cert.Pre_finite_inputs.fn (F := Ideal) a0 a1 a2 a3 a4 a5 = (fun _ => 1#1))
    (b : Fin 8) (i : Fin 1024) (d : Fin 4) :
    kernelForm a0 a1 a2 a3 a4 a5 b i d = referenceForm a0 a1 a2 a3 a4 a5 b i d := by
  obtain ⟨⟨θ', rfl⟩, ⟨γ', rfl⟩, ⟨A', rfl⟩, ⟨ω', rfl⟩, ⟨κ', rfl⟩, ⟨α', rfl⟩⟩ := finite_of_fn a0 a1 a2 a3 a4 a5 h
  exact kernelForm_eq_referenceForm θ' γ' A' ω' κ' α' b i d

/-- The same as an equation of whole arrays, in the shape both runs' posts state their result. -/
theorem kernelForm_array_eq_of_fn (a0 : I8x1024x4 → EReal) (a1 : I8x1024 → EReal) (a2 : I8x1024x1024 → EReal)
    (a3 a4 : I1024x4 → EReal) (a5 : I1024x1024 → EReal)
    (h : Cert.Pre_finite_inputs.fn (F := Ideal) a0 a1 a2 a3 a4 a5 = (fun _ => 1#1)) :
    (fun idx : I8x1024x4 => kernelForm a0 a1 a2 a3 a4 a5 (idx 0) (idx 1) (idx 2))
      = fun idx : I8x1024x4 => referenceForm a0 a1 a2 a3 a4 a5 (idx 0) (idx 1) (idx 2) :=
  funext fun idx => kernelForm_eq_referenceForm_of_fn a0 a1 a2 a3 a4 a5 h (idx 0) (idx 1) (idx 2)

end Kuramoto

end
-- ==== Proof.lean ====
/-
  The tiled phase-coupling (Kuramoto) step agrees with its reference on finite inputs.

  For batch b, row i and component d, with x = θ[b,i,d], both programs return
      x + 1 · ((ω[i,d] + c) + κ[i,d] · (γ[b,i] − x)).
  In the reference the coupling c is 2⁻¹⁰ · Σ_j r_j · sin((θ[b,j,d] − x) − α[i,j]) with the lateral weight
  r_j = max(½ · (A[b,i,j] + A[b,j,i]), 0). In the kernel it is cos x · (ΣP·S − ΣQ·C) − sin x · (ΣQ·S + ΣP·C) with
  P_j = r_j · 2⁻¹⁰ · cos α[i,j], Q_j = r_j · 2⁻¹⁰ · sin α[i,j], S_j = sin θ[b,j,d], C_j = cos θ[b,j,d]: four matrix
  products over the partner row j.

  Frames. Each of the three programs terminates without a fault and leaves its six argument arrays as launched:
  the two kernels because every grid point loads whole blocks, stores one whole output block, and no window
  writes an argument; the reference because it is a straight line of array operations into fresh arrays.
  The idealized kernel is the kernel's own text read at exact values, so there is nothing to preserve.

  Values. At exact values the kernel's result array is `kernelForm` of its arguments: each output block is the block
  formula of its nine input blocks, the input blocks are the argument arrays' entries at the tile's rows, and the
  output blocks tile the result. The reference's result array is `referenceForm` of its arguments, read one operation
  at a time. Under the precondition every entry of every argument is a real number, and over the reals the identities
  sin(u − v) = sin u · cos v − cos u · sin v and cos(u − v) = cos u · cos v + sin u · sin v, applied to
  (θ_j − x) − α_j and summed over j, turn the reference's single sum into the kernel's four.
-/
import proofs.«105893_j69965017252365_2_alg».proof.Defs
import proofs.«105893_j69965017252365_2_alg».proof.Proof.Gen.Kernel
import proofs.«105893_j69965017252365_2_alg».proof.Proof.Gen.KernelIdeal
import proofs.«105893_j69965017252365_2_alg».proof.Proof.Gen.ReferenceIdeal
import proofs.«105893_j69965017252365_2_alg».proof.Proof.Gen.Pre_finite_inputs
import proofs.«105893_j69965017252365_2_alg».proof.Proof.KernelFrame
import proofs.«105893_j69965017252365_2_alg».proof.Proof.KernelIdealValue
import proofs.«105893_j69965017252365_2_alg».proof.Proof.RefSide
import proofs.«105893_j69965017252365_2_alg».proof.Proof.Bridge

noncomputable section

namespace Cert.Proof

open Idealize.ShloMosaic Idealize.SL.Sem

/-- The kernel terminates and leaves its arguments as launched. -/
theorem frame_Kernel : Cert.frame_Kernel := fun m ρ _ => Cert.Kernel.Hand.frame m ρ

/-- So does the kernel read at exact values. -/
theorem frame_KernelIdeal : Cert.frame_KernelIdeal := fun m ρ _ => Cert.KernelIdeal.Hand.frame m ρ

/-- So does the reference. -/
theorem frame_ReferenceIdeal : Cert.frame_ReferenceIdeal := Kuramoto.Reference.frame_ReferenceIdeal

/-- No operation was rewritten between the kernel and its exact reading. -/
theorem preserves : Cert.preserves_Kernel_KernelIdeal := trivial

/-- From memories agreeing on the arguments, the kernel and the reference both end at the same result array:
    the kernel's arrangement of the update, which on finite inputs is the reference's. -/
theorem algebraic : Cert.algebraic_KernelIdeal_ReferenceIdeal := by
  intro m ρ m' ρ' hpre hagree
  refine ⟨fun c => Cert.KernelIdeal.Hand.G m c, Cert.KernelIdeal.Hand.run m ρ, ?_⟩
  refine (θ_run Cert.ReferenceIdeal.defs _ _).mono (fun _ h c => ⟨(h c).1.trans ?_, (h c).2⟩)
    (Kuramoto.Reference.reference_run m' ρ')
  rw [(hagree c).1, (hagree c).2.1, (hagree c).2.2.1, (hagree c).2.2.2.1, (hagree c).2.2.2.2.1, (hagree c).2.2.2.2.2]
  exact (Kuramoto.kernelForm_array_eq_of_fn
    (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (hpre c)).symm

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
